-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1000 : Shape := ⟨2, ![50000, 1000]⟩
abbrev S50000 : Shape := ⟨1, ![50000]⟩
abbrev S_ : Shape := ⟨0, ![]⟩

class Facts : Prop where
  bcast_S_S50000x1000 : S_.BroadcastsInDim S50000x1000 (![] : Fin 0 → Fin S50000x1000.rank)
  reducesTo_S50000x1000_S_d0_1 : S50000x1000.ReducesTo [0, 1] S_
  h_S_ : 0 < S_.numel

variable [Facts]

def fn {F : FTy → Type} [FloatOps F] (main_arg0 : FVec F S50000x1000 .f32) (main_arg1 : IVec S50000 32) : IVec S_ 1 :=
  let main_v0 : FVec F S50000x1000 .f32 := Host.absf main_arg0
  let main_cst : FVec F S_ .f32 := constant S_ .f32 0x7F800000#32
  let main_v1 : FVec F S50000x1000 .f32 := broadcastInDim S50000x1000 ![] bcast_S_S50000x1000 main_cst
  let main_v2 : IVec S50000x1000 1 := cmpf .olt main_v0 main_v1
  let main_c : IVec S_ 1 := constantI S_ 1 1#1
  let main_v3 : IVec S_ 1 := (fun x v => Host.reduce IntOp.andi x v reducesTo_S50000x1000_S_d0_1 h_S_) main_v2 main_c
  main_v3
-- ==== Kernel.lean ====
abbrev S50000x1000 : Shape := ⟨2, ![50000, 1000]⟩
abbrev S50000 : Shape := ⟨1, ![50000]⟩
abbrev S50000x1 : Shape := ⟨2, ![50000, 1]⟩
abbrev S2x15x1000 : Shape := ⟨3, ![2, 15, 1000]⟩
abbrev S1000x1000 : Shape := ⟨2, ![1000, 1000]⟩
abbrev S1000x1 : Shape := ⟨2, ![1000, 1]⟩
abbrev S1x15x1000 : Shape := ⟨3, ![1, 15, 1000]⟩
abbrev S15x1000 : Shape := ⟨2, ![15, 1000]⟩
abbrev S1x1000 : Shape := ⟨2, ![1, 1000]⟩
abbrev S1000 : Shape := ⟨1, ![1000]⟩
abbrev S1000x15 : Shape := ⟨2, ![1000, 15]⟩
abbrev S_ : Shape := ⟨0, ![]⟩

abbrev nBuf : Space → Nat
  | .hbm => 39
  | .vmem => 13
  | .smem => 0
  | _ => 0

abbrev bufTy : (tb : Table) → Fin (tcTables nBuf tb) → BufTy
  | .hbm, ⟨0, _⟩ => ⟨S50000x1000, .f32⟩
  | .hbm, ⟨1, _⟩ => ⟨S50000, .i32⟩
  | .hbm, ⟨2, _⟩ => ⟨S50000x1, .i32⟩
  | .hbm, ⟨3, _⟩ => ⟨S2x15x1000, .f32⟩
  | .hbm, ⟨4, _⟩ => ⟨S2x15x1000, .f32⟩
  | .hbm, ⟨5, _⟩ => ⟨S2x15x1000, .f32⟩
  | .hbm, ⟨6, _⟩ => ⟨S_, .f32⟩
  | .hbm, ⟨7, _⟩ => ⟨S15x1000, .f32⟩
  | .hbm, ⟨8, _⟩ => ⟨S1000x15, .f32⟩
  | .hbm, ⟨9, _⟩ => ⟨S_, .f32⟩
  | .hbm, ⟨10, _⟩ => ⟨S15x1000, .f32⟩
  | .hbm, ⟨11, _⟩ => ⟨S1000x15, .f32⟩
  | .hbm, ⟨12, _⟩ => ⟨S_, .f32⟩
  | .hbm, ⟨13, _⟩ => ⟨S15x1000, .f32⟩
  | .hbm, ⟨14, _⟩ => ⟨S1000x15, .f32⟩
  | .hbm, ⟨15, _⟩ => ⟨S_, .f32⟩
  | .hbm, ⟨16, _⟩ => ⟨S1000x15, .f32⟩
  | .hbm, ⟨17, _⟩ => ⟨S1000x15, .f32⟩
  | .hbm, ⟨18, _⟩ => ⟨S1000x15, .f32⟩
  | .hbm, ⟨19, _⟩ => ⟨S1000x15, .f32⟩
  | .hbm, ⟨20, _⟩ => ⟨S1000x15, .f32⟩
  | .hbm, ⟨21, _⟩ => ⟨S1000x15, .f32⟩
  | .hbm, ⟨22, _⟩ => ⟨S_, .f32⟩
  | .hbm, ⟨23, _⟩ => ⟨S1000x15, .f32⟩
  | .hbm, ⟨24, _⟩ => ⟨S1000x15, .f32⟩
  | .hbm, ⟨25, _⟩ => ⟨S_, .f32⟩
  | .hbm, ⟨26, _⟩ => ⟨S1000x15, .f32⟩
  | .hbm, ⟨27, _⟩ => ⟨S1000x15, .i1⟩
  | .hbm, ⟨28, _⟩ => ⟨S1000x15, .f32⟩
  | .hbm, ⟨29, _⟩ => ⟨S_, .f32⟩
  | .hbm, ⟨30, _⟩ => ⟨S_, .f32⟩
  | .hbm, ⟨31, _⟩ => ⟨S1000x15, .f32⟩
  | .hbm, ⟨32, _⟩ => ⟨S1000x15, .f32⟩
  | .hbm, ⟨33, _⟩ => ⟨S_, .f32⟩
  | .hbm, ⟨34, _⟩ => ⟨S1000, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1000x1000, .f32⟩
  | .local _ .vmem, ⟨1, _⟩ => ⟨S1000x1000, .f32⟩
  | .local _ .vmem, ⟨2, _⟩ => ⟨S1000x1, .i32⟩
  | .local _ .vmem, ⟨3, _⟩ => ⟨S1000x1, .i32⟩
  | .local _ .vmem, ⟨4, _⟩ => ⟨S1x15x1000, .f32⟩
  | .local _ .vmem, ⟨5, _⟩ => ⟨S1x15x1000, .f32⟩
  | .local _ .vmem, ⟨6, _⟩ => ⟨S1x15x1000, .f32⟩
  | .local _ .vmem, ⟨7, _⟩ => ⟨S1x15x1000, .f32⟩
  | .local _ .vmem, ⟨8, _⟩ => ⟨S1x15x1000, .f32⟩
  | .local _ .vmem, ⟨9, _⟩ => ⟨S1x15x1000, .f32⟩
  | .local _ .vmem, ⟨10, _⟩ => ⟨S15x1000, .f32⟩
  | .local _ .vmem, ⟨11, _⟩ => ⟨S15x1000, .f32⟩
  | .local _ .vmem, ⟨12, _⟩ => ⟨S15x1000, .f32⟩
  | _, _ => ⟨S50000x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_call0_v0 : Ref sig .tc := ⟨.hbm, 30, rfl⟩
abbrev main_call0_v1 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_cst_8 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v227 : BitVec 1 := Scalar.cmpi .eq arg1 c24_i32
  let v228 : BitVec 32 := Scalar.extui v227
  let c0_i32_102 : BitVec 32 := 0#32
  let v229 : BitVec 1 := Scalar.cmpi .ne v228 c0_i32_102
  v229

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1000x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x15x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x15x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x15x1000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S50000_S50000x1 : S50000.ShapeCasts S50000x1
  inb_S15x1000_S15x1000_0_0 : ∀ a, (![0, 0] : Fin 2 → Nat) a + S15x1000.size a ≤ S15x1000.size a
  h_S15x1000 : 0 < S15x1000.numel
  shapeCasts_S15x1000_S15x1000 : S15x1000.ShapeCasts S15x1000
  inb_S1000x1000_S1000x1000_0_0 : ∀ a, (![0, 0] : Fin 2 → Nat) a + S1000x1000.size a ≤ S1000x1000.size a
  h_S1000x1000 : 0 < S1000x1000.numel
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  iota_S1x1000_d1_w32 : S1x1000.Iotas .tc 32 [1]
  broadcasts_S1000x1_S1000x1000 : S1000x1.Broadcasts S1000x1000
  broadcasts_S1x1000_S1000x1000 : S1x1000.Broadcasts S1000x1000
  natLt_1_32 : 1 < 32
  bitsLt_bf16_f32 : FTy.bits .bf16 < FTy.bits .f32
  reduces_S1000x1000_S1000 : S1000x1000.Reduces [1] S1000
  shapeCasts_S1000_S1000x1 : S1000.ShapeCasts S1000x1
  iota_S1000x15_d1_w32 : S1000x15.Iotas .tc 32 [1]
  broadcasts_S1000x1_S1000x15 : S1000x1.Broadcasts S1000x15
  transposes_S1000x15_p1_0_S15x1000 : S1000x15.Transposes [1, 0] S15x1000
  reduces_S1000x1000_S1000_2 : S1000x1000.Reduces [0] S1000
  shapeCasts_S1000_S1x1000 : S1000.ShapeCasts S1x1000
  concatenates_S1x1000_S1x1000_S1x1000_S1x1000_S1x1000_S1x1000_S1x1000_S1x1000_S1x1000_S1x1000_S1x1000_S1x1000_S1x1000_S1x1000_S1x1000_S15x1000_d0 : Shape.Concatenates [S1x1000, S1x1000, S1x1000, S1x1000, S1x1000, S1x1000, S1x1000, S1x1000, S1x1000, S1x1000, S1x1000, S1x1000, S1x1000, S1x1000, S1x1000] S15x1000 0
  shapeCasts_S15x1000_S1x15x1000 : S15x1000.ShapeCasts S1x15x1000
  inb_S1x15x1000_S1x15x1000_0_0_0 : ∀ a, (![0, 0, 0] : Fin 3 → Nat) a + S1x15x1000.size a ≤ S1x15x1000.size a
  h_S1x15x1000 : 0 < S1x15x1000.numel
  reducesTo_S2x15x1000_S15x1000_d0 : S2x15x1000.ReducesTo [0] S15x1000
  h_S_ : 0 < S_.numel
  transposes_S15x1000_S1000x15_1_0 : S15x1000.Transposes [1, 0] S1000x15
  bcast_S_S1000x15 : S_.BroadcastsInDim S1000x15 (![] : Fin 0 → Fin S1000x15.rank)
  reducesTo_S1000x15_S1000_d1 : S1000x15.ReducesTo [1] S1000
  reducesTo_S1000_S_d0 : S1000.ReducesTo [0] S_
  dot_S15x1000_S1000x1000_S15x1000_1_0_0_1_n_n_wf : DotDims.WF S15x1000 S1000x1000 S15x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1000.size a ≤ S50000x1000.size a
  hwx0_0 : ∀ i : grid0.Coords, EltTy.bits .f32 = 32 ∨ (Rect.block (s := S50000x1000) S1000x1000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x1.size a ≤ S50000x1.size a
  hwx0_1 : ∀ i : grid0.Coords, EltTy.bits .i32 = 32 ∨ (Rect.block (s := S50000x1) S1000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x15x1000.size a ≤ S2x15x1000.size a
  hwx0_2 : ∀ i : grid0.Coords, EltTy.bits .f32 = 32 ∨ (Rect.block (s := S2x15x1000) S1x15x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x15x1000.size a ≤ S2x15x1000.size a
  hwx0_3 : ∀ i : grid0.Coords, EltTy.bits .f32 = 32 ∨ (Rect.block (s := S2x15x1000) S1x15x1000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x15x1000.size a ≤ S2x15x1000.size a
  hwx0_4 : ∀ i : grid0.Coords, EltTy.bits .f32 = 32 ∨ (Rect.block (s := S2x15x1000) S1x15x1000.size (cc0_transform_4 i) (hinb0_4 i)).WholeWords (EltTy.packing .f32)

variable [Facts₀]

def dot_S15x1000_S1000x1000_S15x1000_1_0_0_1_n_n : DotDims S15x1000 S1000x1000 S15x1000 where
  lhsContracting := [1]
  rhsContracting := [0]
  lhsNonContracting := [0]
  rhsNonContracting := [1]
  lhsBatch := []
  rhsBatch := []
  wf := dot_S15x1000_S1000x1000_S15x1000_1_0_0_1_n_n_wf

abbrev win0_0 : Pipeline.Window sig grid0 :=
  Pipeline.Window.ofSpec (Memref.whole main_arg0) S1000x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x15x1000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x15x1000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x15x1000.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond2 i == 1#1) | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S50000x1000 : Shape := ⟨2, ![50000, 1000]⟩
abbrev S50000 : Shape := ⟨1, ![50000]⟩
abbrev S_ : Shape := ⟨0, ![]⟩
abbrev S1000 : Shape := ⟨1, ![1000]⟩
abbrev S1x1000 : Shape := ⟨2, ![1, 1000]⟩
abbrev S50000000 : Shape := ⟨1, ![50000000]⟩
abbrev S50000x1 : Shape := ⟨2, ![50000, 1]⟩
abbrev S15000 : Shape := ⟨1, ![15000]⟩
abbrev S50000000x1 : Shape := ⟨2, ![50000000, 1]⟩
abbrev S1000x15 : Shape := ⟨2, ![1000, 15]⟩

abbrev nBuf : Space → Nat
  | .hbm => 76
  | .vmem => 0
  | .smem => 0
  | _ => 0

abbrev bufTy : (tb : Table) → Fin (tcTables nBuf tb) → BufTy
  | .hbm, ⟨0, _⟩ => ⟨S50000x1000, .f32⟩
  | .hbm, ⟨1, _⟩ => ⟨S50000, .i32⟩
  | .hbm, ⟨2, _⟩ => ⟨S_, .f32⟩
  | .hbm, ⟨3, _⟩ => ⟨S50000x1000, .f32⟩
  | .hbm, ⟨4, _⟩ => ⟨S50000x1000, .f32⟩
  | .hbm, ⟨5, _⟩ => ⟨S50000x1000, .f32⟩
  | .hbm, ⟨6, _⟩ => ⟨S50000x1000, .i32⟩
  | .hbm, ⟨7, _⟩ => ⟨S_, .i32⟩
  | .hbm, ⟨8, _⟩ => ⟨S50000x1000, .i32⟩
  | .hbm, ⟨9, _⟩ => ⟨S50000x1000, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S50000x1000, .i32⟩
  | .hbm, ⟨14, _⟩ => ⟨S50000x1000, .i32⟩
  | .hbm, ⟨15, _⟩ => ⟨S_, .i32⟩
  | .hbm, ⟨16, _⟩ => ⟨S50000x1000, .i32⟩
  | .hbm, ⟨17, _⟩ => ⟨S50000x1000, .i32⟩
  | .hbm, ⟨18, _⟩ => ⟨S1000, .i32⟩
  | .hbm, ⟨19, _⟩ => ⟨S1x1000, .i32⟩
  | .hbm, ⟨20, _⟩ => ⟨S_, .i32⟩
  | .hbm, ⟨21, _⟩ => ⟨S1x1000, .i32⟩
  | .hbm, ⟨22, _⟩ => ⟨S1x1000, .i32⟩
  | .hbm, ⟨23, _⟩ => ⟨S50000x1000, .i32⟩
  | .hbm, ⟨24, _⟩ => ⟨S50000x1000, .i32⟩
  | .hbm, ⟨25, _⟩ => ⟨S50000000, .i32⟩
  | .hbm, ⟨26, _⟩ => ⟨S50000x1, .i32⟩
  | .hbm, ⟨27, _⟩ => ⟨S1000, .i32⟩
  | .hbm, ⟨28, _⟩ => ⟨S1x1000, .i32⟩
  | .hbm, ⟨29, _⟩ => ⟨S50000x1000, .i32⟩
  | .hbm, ⟨30, _⟩ => ⟨S50000x1000, .i32⟩
  | .hbm, ⟨31, _⟩ => ⟨S50000x1000, .i1⟩
  | .hbm, ⟨32, _⟩ => ⟨S50000x1000, .f32⟩
  | .hbm, ⟨33, _⟩ => ⟨S_, .f32⟩
  | .hbm, ⟨34, _⟩ => ⟨S50000000, .f32⟩
  | .hbm, ⟨35, _⟩ => ⟨S_, .f32⟩
  | .hbm, ⟨36, _⟩ => ⟨S15000, .f32⟩
  | .hbm, ⟨37, _⟩ => ⟨S50000000x1, .i32⟩
  | .hbm, ⟨38, _⟩ => ⟨S15000, .f32⟩
  | .hbm, ⟨39, _⟩ => ⟨S1000x15, .f32⟩
  | .hbm, ⟨40, _⟩ => ⟨S50000000, .f32⟩
  | .hbm, ⟨41, _⟩ => ⟨S_, .f32⟩
  | .hbm, ⟨42, _⟩ => ⟨S15000, .f32⟩
  | .hbm, ⟨43, _⟩ => ⟨S50000000x1, .i32⟩
  | .hbm, ⟨44, _⟩ => ⟨S15000, .f32⟩
  | .hbm, ⟨45, _⟩ => ⟨S1000x15, .f32⟩
  | .hbm, ⟨46, _⟩ => ⟨S50000000, .f32⟩
  | .hbm, ⟨47, _⟩ => ⟨S_, .f32⟩
  | .hbm, ⟨48, _⟩ => ⟨S15000, .f32⟩
  | .hbm, ⟨49, _⟩ => ⟨S50000000x1, .i32⟩
  | .hbm, ⟨50, _⟩ => ⟨S15000, .f32⟩
  | .hbm, ⟨51, _⟩ => ⟨S1000x15, .f32⟩
  | .hbm, ⟨52, _⟩ => ⟨S_, .f32⟩
  | .hbm, ⟨53, _⟩ => ⟨S1000x15, .f32⟩
  | .hbm, ⟨54, _⟩ => ⟨S1000x15, .f32⟩
  | .hbm, ⟨55, _⟩ => ⟨S1000x15, .f32⟩
  | .hbm, ⟨56, _⟩ => ⟨S1000x15, .f32⟩
  | .hbm, ⟨57, _⟩ => ⟨S1000x15, .f32⟩
  | .hbm, ⟨58, _⟩ => ⟨S1000x15, .f32⟩
  | .hbm, ⟨59, _⟩ => ⟨S_, .f32⟩
  | .hbm, ⟨60, _⟩ => ⟨S1000x15, .f32⟩
  | .hbm, ⟨61, _⟩ => ⟨S1000x15, .f32⟩
  | .hbm, ⟨62, _⟩ => ⟨S_, .f32⟩
  | .hbm, ⟨63, _⟩ => ⟨S1000x15, .f32⟩
  | .hbm, ⟨64, _⟩ => ⟨S1000x15, .i1⟩
  | .hbm, ⟨65, _⟩ => ⟨S1000x15, .f32⟩
  | .hbm, ⟨66, _⟩ => ⟨S_, .f32⟩
  | .hbm, ⟨67, _⟩ => ⟨S_, .f32⟩
  | .hbm, ⟨68, _⟩ => ⟨S1000x15, .f32⟩
  | .hbm, ⟨69, _⟩ => ⟨S1000x15, .f32⟩
  | .hbm, ⟨70, _⟩ => ⟨S_, .f32⟩
  | .hbm, ⟨71, _⟩ => ⟨S1000, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S50000x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_call1_v0 : Ref sig .tc := ⟨.hbm, 67, rfl⟩
abbrev main_call1_v1 : Ref sig .tc := ⟨.hbm, 68, rfl⟩
abbrev main_v47 : Ref sig .tc := ⟨.hbm, 69, rfl⟩
abbrev main_cst_11 : Ref sig .tc := ⟨.hbm, 70, rfl⟩
abbrev main_v48 : Ref sig .tc := ⟨.hbm, 71, rfl⟩
abbrev main_cst_12 : Ref sig .tc := ⟨.hbm, 72, rfl⟩
abbrev main_v49 : Ref sig .tc := ⟨.hbm, 73, rfl⟩
abbrev main_cst_13 : Ref sig .tc := ⟨.hbm, 74, rfl⟩
abbrev main_v50 : Ref sig .tc := ⟨.hbm, 75, rfl⟩

abbrev nD : Nat := 1
abbrev τ : Topo := Topo.v7x

variable {F : FTy → Type} [FloatOps F]

class Facts₀ : Prop where
  bcast_S_S50000x1000 : S_.BroadcastsInDim S50000x1000 (![] : Fin 0 → Fin S50000x1000.rank)
  bcast_S1000_S1x1000_1 : S1000.BroadcastsInDim S1x1000 (![1] : Fin 1 → Fin S1x1000.rank)
  bcast_S_S1x1000 : S_.BroadcastsInDim S1x1000 (![] : Fin 0 → Fin S1x1000.rank)
  bcast_S1x1000_S50000x1000_0_1 : S1x1000.BroadcastsInDim S50000x1000 (![0, 1] : Fin 2 → Fin S50000x1000.rank)
  shapeCasts_S50000x1000_S50000000 : S50000x1000.ShapeCasts S50000000
  bcast_S50000_S50000x1_0 : S50000.BroadcastsInDim S50000x1 (![0] : Fin 1 → Fin S50000x1.rank)
  bcast_S50000x1_S50000x1000_0_1 : S50000x1.BroadcastsInDim S50000x1000 (![0, 1] : Fin 2 → Fin S50000x1000.rank)
  bcast_S_S50000000 : S_.BroadcastsInDim S50000000 (![] : Fin 0 → Fin S50000000.rank)
  bcast_S_S15000 : S_.BroadcastsInDim S15000 (![] : Fin 0 → Fin S15000.rank)
  bcast_S50000000_S50000000x1_0 : S50000000.BroadcastsInDim S50000000x1 (![0] : Fin 1 → Fin S50000000x1.rank)
  shapeCasts_S15000_S1000x15 : S15000.ShapeCasts S1000x15
  bcast_S_S1000x15 : S_.BroadcastsInDim S1000x15 (![] : Fin 0 → Fin S1000x15.rank)
  reducesTo_S1000x15_S1000_d1 : S1000x15.ReducesTo [1] S1000
  h_S_ : 0 < S_.numel
  reducesTo_S1000_S_d0 : S1000.ReducesTo [0] S_
  scatter_S15000_S50000000x1_S50000000_n_0_0_1_wf : ScatterDims.WF S15000 S50000000x1 S50000000 [] [0] [0] 1

variable [Facts₀]

def scatter_S15000_S50000000x1_S50000000_n_0_0_1 : ScatterDims S15000 S50000000x1 S50000000 where
  updateWindowDims := []
  insertedWindowDims := [0]
  scatterDimsToOperandDims := [0]
  indexVectorDim := 1
  wf := scatter_S15000_S50000000x1_S50000000_n_0_0_1_wf

class Facts : Prop extends Facts₀ where

variable [Facts]
-- ==== Proof.BinSpec.lean ====
/-
  A class-wise calibration histogram, as sums over the samples.

  There are 50000 samples, 1000 classes and 15 bins.  A confidence x falls into the bin ⌈15·x⌉ − 1, taken as a
  32-bit integer and clamped into [0, 14].  For a class c and a bin b three numbers are collected over the samples n
  whose confidence for class c falls into bin b:
    * how many there are (each sample counts the float one),
    * the sum of their confidences for class c,
    * how many of them carry the label c.
  Everything is an extended real; a sample that does not fall into the bin contributes zero, so the sums have one
  term per sample and nothing has to be finite.
-/
import Idealize.ShloMosaic.PureOps.Ideal
import Idealize.ShloMosaic.Lib.ValueIdx

noncomputable section

open scoped BigOperators

namespace Cert.Hist

open Idealize.ShloMosaic Idealize.ShloMosaic.ValueIdx

/-- The bin of a confidence: ⌈15·x⌉ − 1 as a 32-bit integer, clamped into [0, 14]. -/
def binOf (x : EReal) : BitVec 32 :=
  IntOp.minsi 14#32 (IntOp.maxsi 0#32 (IntOp.subi
    (FloatOps.fptosi (F := Ideal) (φ := .f32) 32
      (FloatOps.ceil (F := Ideal) (φ := .f32) (FloatOps.mulf (F := Ideal) (φ := .f32) x (FloatOps.ofBits .f32 0x41700000#32))))
    1#32))

/-- The float one, as both programs spell it. -/
abbrev fone : EReal := FloatOps.ofBits (F := Ideal) .f32 0x3F800000#32

variable (sm : (⟨2, ![50000, 1000]⟩ : Shape).Idx → EReal) (lbl : (⟨1, ![50000]⟩ : Shape).Idx → BitVec 32)

/-- How many samples fall into bin b for class c. -/
def cntG (c : Fin 1000) (b : Fin 15) : EReal :=
  ∑ n : Fin 50000, if binOf (sm (ix2 n c)) = BitVec.ofNat 32 b.val then fone else 0

/-- The sum of the class-c confidences of the samples that fall into bin b for class c. -/
def confG (c : Fin 1000) (b : Fin 15) : EReal :=
  ∑ n : Fin 50000, if binOf (sm (ix2 n c)) = BitVec.ofNat 32 b.val then sm (ix2 n c) else 0

/-- How many samples that fall into bin b for class c are labelled c. -/
def corrG (c : Fin 1000) (b : Fin 15) : EReal :=
  ∑ n : Fin 50000, if lbl (ix1 n) = BitVec.ofNat 32 c.val ∧ binOf (sm (ix2 n c)) = BitVec.ofNat 32 b.val then 1 else 0

end Cert.Hist

end
-- ==== Proof.HistTail.lean ====
/-
  From the three class-by-bin tables to the calibration error.

  Both programs finish the same way.  With cnt, conf and corr the [1000, 15] tables of counts, confidence sums and
  label counts, a cell's gap is |conf / max(cnt, 1) − corr / max(cnt, 1)|, its weight cnt / 50000; a cell with a
  positive count contributes weight · gap, any other cell zero; the contributions are summed over the bins, then over
  the classes, and divided by 1000.  The tail is kept as ONE function of the three tables, so that two programs whose
  tables agree are equal after it without its operations ever being opened.  The shapes are written out, and the
  shape facts the operations take are decided here: they are propositions, so any program's own proofs of them give
  the same term.
-/
import Idealize.ShloMosaic.PureOps.Ideal

noncomputable section

namespace Cert.Hist

open Idealize.ShloMosaic

/-- The shape of a class-by-bin table, of a per-class vector, and of a single number. -/
abbrev ST : Shape := ⟨2, ![1000, 15]⟩
abbrev SC : Shape := ⟨1, ![1000]⟩
abbrev S0 : Shape := ⟨0, ![]⟩

theorem splat_fact : S0.BroadcastsInDim ST (![] : Fin 0 → Fin ST.rank) := by decide
theorem bins_fact : ST.ReducesTo [1] SC := by decide
theorem classes_fact : SC.ReducesTo [0] S0 := by decide
theorem one_fact : 0 < S0.numel := by decide

/-- The calibration error of the three tables, in the host's operations. -/
def histTail (cnt conf corr : FVec Ideal ST .f32) : FVec Ideal S0 .f32 :=
  Host.divf
    (Host.reduceAdd
      (Host.reduceAdd
        (select
          (cmpf .ogt cnt (broadcastInDim ST ![] splat_fact (constant (F := Ideal) S0 .f32 0x00000000#32)))
          (mulf
            (Host.divf cnt (broadcastInDim ST ![] splat_fact (constant (F := Ideal) S0 .f32 0x47435000#32)))
            (Host.absf (subf
              (Host.divf conf (maximumf cnt (broadcastInDim ST ![] splat_fact (constant (F := Ideal) S0 .f32 0x3F800000#32))))
              (Host.divf corr (maximumf cnt (broadcastInDim ST ![] splat_fact (constant (F := Ideal) S0 .f32 0x3F800000#32)))))))
          (broadcastInDim ST ![] splat_fact (id (constant (F := Ideal) S0 .f32 0x00000000#32))))
        (constant (F := Ideal) S0 .f32 0x00000000#32) bins_fact one_fact)
      (constant (F := Ideal) S0 .f32 0x00000000#32) classes_fact one_fact)
    (constant (F := Ideal) S0 .f32 0x447A0000#32)

end Cert.Hist

end
-- ==== Proof.LibScatterAt.lean ====
/-
  A host scatter read at one index of its result.

  The host's `scatter` is a left fold over all the update indices, in row-major order: each update index `j` has
  a landing place `d.resultIdx? j idx` in the operand (or none, when its window leaves the operand), and the step
  for `j` replaces the element there by the body `f` applied to it and to the update's element at `j`.
  When distinct update indices never land on the same place, the element of the result at a place `i` has met
  at most one step:
    * `Host.scatter_apply_of_miss`: no update index lands on `i`  ⟹  the result at `i` is the operand's element;
    * `Host.scatter_apply_of_hit`:  `j₀` lands on `i`             ⟹  the result at `i` is `f (x i) (upd j₀)`.
  Both hold for any body `f` and any element type; nothing is evaluated, so the number of update indices is
  irrelevant. The first needs no injectivity. `ScatterDims.resultIdx?_val` reads a landing place coordinate by
  coordinate (start plus window coordinate), which is how the two hypotheses are met for given dimension numbers.
-/
import Idealize.ShloMosaic.PureOps.ShapeOps

namespace Idealize.ShloMosaic

section ScatterAt
variable {s si u : Shape} {α : Type} {w : Nat}

/-- The step of `Host.scatter`'s fold at the update index of row-major position `n`. -/
def Host.scatterStep (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- `Host.scatter` is the fold of that step over all positions. -/
theorem Host.scatter_eq_foldl (d : ScatterDims s si u) (f : α → α → α) (x : s.Idx → α) (idx : IVec si w) (upd : u.Idx → α) :
    Host.scatter d f x idx upd = (List.finRange u.numel).foldl (Host.scatterStep d f idx upd) x := rfl

/-- A step whose update index lands elsewhere (or nowhere) leaves the element at `i` alone. -/
theorem Host.scatterStep_apply_of_ne (d : ScatterDims s si u) (f : α → α → α) (idx : IVec si w) (upd : u.Idx → α)
    (r : s.Idx → α) (n : Fin u.numel) (i : s.Idx) (h : d.resultIdx? (u.rowMajor.symm n) idx ≠ some i) :
    Host.scatterStep d f idx upd r n i = r i := by
  unfold Host.scatterStep
  generalize d.resultIdx? (u.rowMajor.symm n) idx = o at h ⊢
  cases o with
  | none => rfl
  | some k => exact if_neg fun e => h (congrArg some e.symm)

/-- A step whose update index lands on `i` applies the body there. -/
theorem Host.scatterStep_apply_of_eq (d : ScatterDims s si u) (f : α → α → α) (idx : IVec si w) (upd : u.Idx → α)
    (r : s.Idx → α) (n : Fin u.numel) (i : s.Idx) (h : d.resultIdx? (u.rowMajor.symm n) idx = some i) :
    Host.scatterStep d f idx upd r n i = f (r i) (upd (u.rowMajor.symm n)) := by
  unfold Host.scatterStep
  generalize d.resultIdx? (u.rowMajor.symm n) idx = o at h ⊢
  cases o with
  | none => exact absurd h (by simp)
  | some k =>
    have e : k = i := Option.some.inj h
    subst e
    exact if_pos rfl

/-- A run of steps none of which lands on `i` leaves the element at `i` alone. -/
theorem Host.foldl_scatterStep_apply_of_miss (d : ScatterDims s si u) (f : α → α → α) (idx : IVec si w) (upd : u.Idx → α)
    (i : s.Idx) : ∀ (l : List (Fin u.numel)) (r : s.Idx → α),
      (∀ n ∈ l, d.resultIdx? (u.rowMajor.symm n) idx ≠ some i) → l.foldl (Host.scatterStep d f idx upd) r i = r i
  | [], _, _ => rfl
  | a :: l, r, h => by
    rw [List.foldl_cons, Host.foldl_scatterStep_apply_of_miss d f idx upd i l _ fun n hn => h n (List.mem_cons_of_mem _ hn)]
    exact Host.scatterStep_apply_of_ne d f idx upd r a i (h a (List.mem_cons_self ..))

/-- NO UPDATE INDEX LANDS ON `i`: the scatter's result there is the operand's element. -/
theorem Host.scatter_apply_of_miss (d : ScatterDims s si u) (f : α → α → α) (x : s.Idx → α) (idx : IVec si w) (upd : u.Idx → α)
    (i : s.Idx) (h : ∀ j : u.Idx, d.resultIdx? j idx ≠ some i) : Host.scatter d f x idx upd i = x i := by
  rw [Host.scatter_eq_foldl]
  exact Host.foldl_scatterStep_apply_of_miss d f idx upd i _ x fun n _ => h _

/-- A run of steps over distinct positions, one of which is the position of `j₀`, which lands on `i` and is the
    only update index to do so: the element at `i` has met the body once, with the update's element at `j₀`. -/
theorem Host.foldl_scatterStep_apply_of_hit (d : ScatterDims s si u) (f : α → α → α) (idx : IVec si w) (upd : u.Idx → α)
    (i : s.Idx) (j₀ : u.Idx) (h₀ : d.resultIdx? j₀ idx = some i)
    (huniq : ∀ j : u.Idx, d.resultIdx? j idx = some i → j = j₀) :
    ∀ (l : List (Fin u.numel)) (r : s.Idx → α), l.Nodup → u.rowMajor j₀ ∈ l →
      l.foldl (Host.scatterStep d f idx upd) r i = f (r i) (upd j₀)
  | [], _, _, hm => absurd hm (List.not_mem_nil)
  | a :: l, r, hnd, hm => by
    have hal : a ∉ l := (List.nodup_cons.1 hnd).1
    have hl : l.Nodup := (List.nodup_cons.1 hnd).2
    rw [List.foldl_cons]
    by_cases ha : a = u.rowMajor j₀
    · -- this step is the one; none after it lands on `i`
      have hrest : ∀ n ∈ l, d.resultIdx? (u.rowMajor.symm n) idx ≠ some i := fun n hn hk => by
        have : n = u.rowMajor j₀ := by rw [← huniq _ hk, Equiv.apply_symm_apply]
        exact hal (ha ▸ this ▸ hn)
      rw [Host.foldl_scatterStep_apply_of_miss d f idx upd i l _ hrest]
      have hj : u.rowMajor.symm a = j₀ := by rw [ha, Equiv.symm_apply_apply]
      rw [Host.scatterStep_apply_of_eq d f idx upd r a i (hj ▸ h₀), hj]
    · -- this step lands elsewhere; the one comes later
      have hm' : u.rowMajor j₀ ∈ l := by
        rcases List.mem_cons.1 hm with h | h
        · exact absurd h.symm ha
        · exact h
      have hne : d.resultIdx? (u.rowMajor.symm a) idx ≠ some i := fun hk =>
        ha (by rw [← huniq _ hk, Equiv.apply_symm_apply])
      rw [Host.foldl_scatterStep_apply_of_hit d f idx upd i j₀ h₀ huniq l _ hl hm',
        Host.scatterStep_apply_of_ne d f idx upd r a i hne]

/-- THE UPDATE INDEX `j₀`, AND NO OTHER, LANDS ON `i`: the scatter's result there is the body applied to the
    operand's element and the update's element at `j₀`. -/
theorem Host.scatter_apply_of_hit (d : ScatterDims s si u) (f : α → α → α) (x : s.Idx → α) (idx : IVec si w) (upd : u.Idx → α)
    (i : s.Idx) (j₀ : u.Idx) (h₀ : d.resultIdx? j₀ idx = some i)
    (huniq : ∀ j : u.Idx, d.resultIdx? j idx = some i → j = j₀) :
    Host.scatter d f x idx upd i = f (x i) (upd j₀) := by
  rw [Host.scatter_eq_foldl]
  exact Host.foldl_scatterStep_apply_of_hit d f idx upd i j₀ h₀ huniq _ x (List.nodup_finRange _) (List.mem_finRange _)

/-- WHERE AN UPDATE INDEX LANDS, coordinate by coordinate: the window's start on the axis plus the update's window
    coordinate there (as integers: the start is read signed). -/
theorem ScatterDims.resultIdx?_val (d : ScatterDims s si u) {j : u.Idx} {idx : IVec si w} {k : s.Idx}
    (h : d.resultIdx? j idx = some k) (a : Fin s.rank) :
    ((k a).val : ℤ) = d.start j idx a + (d.window j a : ℤ) := by
  unfold ScatterDims.resultIdx? at h
  by_cases hb : ∀ a, 0 ≤ d.start j idx a + d.window j a ∧ d.start j idx a + d.window j a < s.size a
  · rw [dif_pos hb] at h
    have e := Option.some.inj h
    subst e
    exact Int.toNat_of_nonneg (hb a).1
  · rw [dif_neg hb] at h
    exact absurd h (by simp)

end ScatterAt

end Idealize.ShloMosaic
-- ==== Proof.LibScatterLand.lean ====
/-
  Where a host scatter's update index lands, as one equation per axis.

  An update index lands on an operand index exactly when, on every axis, the operand coordinate is the window's
  start on that axis plus the update's window coordinate there (as integers: the start is read signed).  This is the
  form in which a landing place is both exhibited (for the index that hits) and refuted (for an index that cannot).
-/
import proofs.«108759_j47012712022077_2_alg».proof.Proof.LibScatterAt

namespace Idealize.ShloMosaic

/-- An update index `j` lands on `i` iff on every axis `i`'s coordinate is the start plus the window coordinate. -/
theorem ScatterDims.resultIdx?_eq_some_iff {s si u : Shape} (d : ScatterDims s si u) {w : Nat} (j : u.Idx)
    (idx : IVec si w) (i : s.Idx) :
    d.resultIdx? j idx = some i ↔ ∀ a, ((i a).val : ℤ) = d.start j idx a + (d.window j a : ℤ) := by
  constructor
  · intro h a; exact ScatterDims.resultIdx?_val d h a
  · intro h
    have hb : ∀ a, 0 ≤ d.start j idx a + d.window j a ∧ d.start j idx a + d.window j a < s.size a := fun a => by
      rw [← h a]; exact ⟨Int.natCast_nonneg _, by exact_mod_cast (i a).isLt⟩
    unfold ScatterDims.resultIdx?
    rw [dif_pos hb]
    congr 1
    funext a
    apply Fin.ext
    show (d.start j idx a + d.window j a).toNat = (i a).val
    rw [← h a]
    exact Int.toNat_natCast _

end Idealize.ShloMosaic
-- ==== Proof.LibEdgeSums.lean ====
/-
  Rows gathered along a list of edges and added up at their destinations, read at one index.

  A graph's E edges are pairs (source, destination) of integer words.  Indexing an [N, C] array by the sources
  takes, for every edge e, the row whose number is the source read as a signed integer and clamped into
  [0, N − 1].  A scatter with an `add` body then adds row e of an [E, C] array of updates into row `dst e` of an
  [N, C] operand for every edge whose destination, read signed and NOT clamped, is a row of the operand; an edge
  whose destination is no row is dropped.  On the extended reals the result at (n, c) is the operand's element plus
  the sum over the edges of the update at (e, c) where the destination is n and of zero elsewhere.  With one scalar
  update per edge and a length-N operand the same sum weighs the edges that arrive at n.  Addition of extended
  reals is commutative and associative, so the order of the edges plays no part and nothing has to be finite.
-/
import Idealize.ShloMosaic.PureOps.Ideal
import Idealize.ShloMosaic.Lib.ValueIdx
import proofs.«108759_j47012712022077_2_alg».proof.Proof.LibScatterLand

noncomputable section

open scoped BigOperators

namespace Cert.EdgeSums

open Idealize.ShloMosaic Idealize.ShloMosaic.ValueIdx

/-! ## The row an edge reads -/

/-- Dimension numbers of `x[src]` for an [N, C] operand and E start indices held as an [E, 1] array: whole rows,
    the row axis collapsed. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge `e` reads: its start index as a signed integer, clamped into [0, N − 1]. -/
def srcRow {N E w : Nat} (hN : 0 < N) (idx : IVec ⟨2, ![E, 1]⟩ w) (e : Fin E) : Fin N :=
  ⟨min (idx (ix2 e (0 : Fin 1))).toInt.toNat (N - 1), by omega⟩

section Gather
variable {α : Type} {N C E w : Nat}

/-- The gathered array at (e, c) is the operand at (the row edge e reads, c). -/
theorem rowGather_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N C E wf) x idx (ix2 e c) = x (ix2 (srcRow hN idx e) c) := by
  unfold Host.gather
  congr 1
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e c) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e c) idx 1 + (rowGatherDims N C E wf).batchCoord (ix2 e c) 1
      + (rowGatherDims N C E wf).offCoord (ix2 e c) 1 = c.val
    have h1 : (1 : Fin 2) ∉ (rowGatherDims N C E wf).startIndexMap := fun h =>
      absurd (List.mem_singleton.mp h) (by decide : (1 : Fin 2) ≠ 0)
    have hk : (1 : Fin 2) ∈ (rowGatherDims N C E wf).sKept :=
      (GatherDims.mem_sKept _ _).mpr ⟨fun h => absurd (List.mem_singleton.mp h) (by decide : (1 : Fin 2) ≠ 0), List.not_mem_nil⟩
    rw [GatherDims.batchCoord_eq_zero _ _ _ List.not_mem_nil]
    unfold GatherDims.start GatherDims.offCoord
    rw [dif_neg h1, dif_pos hk]
    simp only [Nat.add_zero, Nat.zero_add]
    rfl

end Gather

/-! ## Rows added at their destinations -/

/-- Dimension numbers of `operand.at[dst].add(updates)` for an [N, C] operand, E destinations held as an [E, 1]
    array and [E, C] updates: whole rows, the row axis inserted. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N C E w : Nat} (wf : ScatterDims.WF ⟨2, ![N, C]⟩ ⟨2, ![E, 1]⟩ ⟨2, ![E, C]⟩ [1] [0] [0] 1)
  (idx : IVec ⟨2, ![E, 1]⟩ w)

theorem rowScatter_start0 (e : Fin E) (c : Fin C) :
    (rowScatterDims N C E wf).start (ix2 e c) idx 0 = (idx (ix2 e (0 : Fin 1))).toInt := by
  unfold ScatterDims.start
  rw [dif_pos (show (0 : Fin 2) ∈ (rowScatterDims N C E wf).scatterDimsToOperandDims from List.mem_singleton.mpr rfl)]
  have hsi : (rowScatterDims N C E wf).siIdx (ix2 e c) ⟨List.idxOf (0 : Fin 2) (rowScatterDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 (e : Fin E) (c : Fin C) : (rowScatterDims N C E wf).start (ix2 e c) idx 1 = 0 := by
  unfold ScatterDims.start
  rw [dif_neg (fun h => absurd (List.mem_singleton.mp h) (by decide : (1 : Fin 2) ≠ 0))]

/-- The operand's axes that receive a window coordinate: the column axis alone. -/
theorem rowScatter_mem_sKept (a : Fin 2) : a ∈ (rowScatterDims N C E wf).sKept ↔ a ≠ 0 := by
  show a ∈ (List.finRange 2).filter (· ∉ [(0 : Fin 2)]) ↔ a ≠ 0
  rw [List.mem_filter]
  simp [List.mem_finRange]

theorem rowScatter_window0 (e : Fin E) (c : Fin C) : (rowScatterDims N C E wf).window (ix2 e c) 0 = 0 := by
  unfold ScatterDims.window
  rw [dif_neg (fun h => (rowScatter_mem_sKept wf 0).mp h rfl)]

theorem rowScatter_window1 (e : Fin E) (c : Fin C) : (rowScatterDims N C E wf).window (ix2 e c) 1 = c.val := by
  unfold ScatterDims.window
  rw [dif_pos ((rowScatter_mem_sKept wf 1).mpr (by decide : (1 : Fin 2) ≠ 0))]
  rfl

/-- The update at (e, c') lands on (n, c) exactly when edge e's destination is n and the columns agree. -/
theorem rowScatter_lands (e : Fin E) (c' : Fin C) (n : Fin N) (c : Fin C) :
    (rowScatterDims N C E wf).resultIdx? (ix2 e c') idx = some (ix2 n c)
      ↔ (idx (ix2 e (0 : Fin 1))).toInt = (n.val : ℤ) ∧ c' = c := by
  rw [ScatterDims.resultIdx?_eq_some_iff]
  constructor
  · intro h
    have h0 := h 0
    have h1 := h 1
    rw [rowScatter_start0, rowScatter_window0] at h0
    rw [rowScatter_start1, rowScatter_window1] at h1
    refine ⟨?_, Fin.ext ?_⟩
    · have : ((n.val : ℕ) : ℤ) = (idx (ix2 e (0 : Fin 1))).toInt + ((0 : ℕ) : ℤ) := h0
      omega
    · have : ((c.val : ℕ) : ℤ) = 0 + ((c'.val : ℕ) : ℤ) := h1
      omega
  · rintro ⟨h0, rfl⟩ a
    match a with
    | ⟨0, _⟩ =>
      show ((n.val : ℕ) : ℤ) = (rowScatterDims N C E wf).start (ix2 e c') idx 0 + ((rowScatterDims N C E wf).window (ix2 e c') 0 : ℤ)
      rw [rowScatter_start0, rowScatter_window0, h0]; simp
    | ⟨1, _⟩ =>
      show ((c'.val : ℕ) : ℤ) = (rowScatterDims N C E wf).start (ix2 e c') idx 1 + ((rowScatterDims N C E wf).window (ix2 e c') 1 : ℤ)
      rw [rowScatter_start1, rowScatter_window1]; simp

/-- ROWS ADDED AT THEIR DESTINATIONS, at (n, c): the operand's element plus the sum over the edges of the update at
    (e, c) where edge e's destination is n. -/
theorem rowScatterAdd_apply (x : (⟨2, ![N, C]⟩ : Shape).Idx → EReal) (upd : (⟨2, ![E, C]⟩ : Shape).Idx → EReal)
    (n : Fin N) (c : Fin C) :
    Ideal.hostScatterAdd (rowScatterDims N C E wf) x idx upd (ix2 n c)
      = x (ix2 n c) + ∑ e : Fin E, if (idx (ix2 e (0 : Fin 1))).toInt = (n.val : ℤ) then upd (ix2 e c) else 0 := by
  unfold Ideal.hostScatterAdd
  congr 1
  rw [Finset.sum_filter, sum_idx2]
  refine Finset.sum_congr rfl fun e _ => ?_
  simp only [rowScatter_lands]
  by_cases h : (idx (ix2 e (0 : Fin 1))).toInt = (n.val : ℤ)
  · simp only [h, true_and, if_true]
    rw [Finset.sum_ite_eq' Finset.univ c, if_pos (Finset.mem_univ _)]
  · simp only [h, false_and, if_false, Finset.sum_const_zero]

end RowScatter

/-! ## Gathered rows added at their destinations -/

/-- What arrives at node n in column c: the sum over the edges whose destination is n of the source row's entry c. -/
def rowsInto {N C E w : Nat} (hN : 0 < N) (x : (⟨2, ![N, C]⟩ : Shape).Idx → EReal) (sidx didx : IVec ⟨2, ![E, 1]⟩ w)
    (n : Fin N) (c : Fin C) : EReal :=
  ∑ e : Fin E, if (didx (ix2 e (0 : Fin 1))).toInt = (n.val : ℤ) then x (ix2 (srcRow hN sidx e) c) else 0

/-- The weight that arrives at node n: the sum over the edges whose destination is n of the edge's weight. -/
def weightInto {N E w : Nat} (didx : IVec ⟨2, ![E, 1]⟩ w) (u : Fin E → EReal) (n : Fin N) : EReal :=
  ∑ e : Fin E, if (didx (ix2 e (0 : Fin 1))).toInt = (n.val : ℤ) then u e else 0

/-- Rows taken at the sources and added at the destinations, at (n, c): the operand's element plus what arrives. -/
theorem gatherScatter_apply {N C E w : Nat} (hN : 0 < N)
    (wg : GatherDims.WF ⟨2, ![N, C]⟩ ⟨2, ![E, 1]⟩ ⟨2, ![E, C]⟩ [1] [0] [] [0] [] 1 ![1, C])
    (ws : ScatterDims.WF ⟨2, ![N, C]⟩ ⟨2, ![E, 1]⟩ ⟨2, ![E, C]⟩ [1] [0] [0] 1)
    (Z x : (⟨2, ![N, C]⟩ : Shape).Idx → EReal) (sidx didx : IVec ⟨2, ![E, 1]⟩ w) (n : Fin N) (c : Fin C) :
    Ideal.hostScatterAdd (rowScatterDims N C E ws) Z didx (Host.gather (rowGatherDims N C E wg) x sidx) (ix2 n c)
      = Z (ix2 n c) + rowsInto hN x sidx didx n c := by
  rw [rowScatterAdd_apply]
  refine congrArg (Z (ix2 n c) + ·) (Finset.sum_congr rfl fun e _ => ?_)
  rw [rowGather_apply hN]

/-- What arrives depends on the rows' entries in that column only. -/
theorem rowsInto_congr {N C C' E w : Nat} (hN : 0 < N) (x : (⟨2, ![N, C]⟩ : Shape).Idx → EReal)
    (x' : (⟨2, ![N, C']⟩ : Shape).Idx → EReal) (sidx didx : IVec ⟨2, ![E, 1]⟩ w) (n : Fin N) (c : Fin C) (c' : Fin C')
    (h : ∀ r : Fin N, x (ix2 r c) = x' (ix2 r c')) : rowsInto hN x sidx didx n c = rowsInto hN x' sidx didx n c' := by
  unfold rowsInto
  refine Finset.sum_congr rfl fun e _ => ?_
  rw [h]

/-- Where every row's entry in the column is the same number u, what arrives is the weight u per arriving edge. -/
theorem rowsInto_const {N C E w : Nat} (hN : 0 < N) (x : (⟨2, ![N, C]⟩ : Shape).Idx → EReal)
    (sidx didx : IVec ⟨2, ![E, 1]⟩ w) (n : Fin N) (c : Fin C) (u : EReal) (h : ∀ r : Fin N, x (ix2 r c) = u) :
    rowsInto hN x sidx didx n c = weightInto didx (fun _ => u) n := by
  unfold rowsInto weightInto
  refine Finset.sum_congr rfl fun e _ => ?_
  rw [h]

/-! ## One number per edge added at its destination -/

/-- Dimension numbers of `operand.at[dst].add(updates)` for a length-N operand and one scalar update per edge. -/
abbrev pointScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range, so a sum over it is the sum over the coordinate. -/
theorem sum_idx1 {M : Type*} [AddCommMonoid M] {n : Nat} (f : (⟨1, ![n]⟩ : Shape).Idx → M) :
    ∑ i, f i = ∑ a : Fin n, f (ix1 a) := by
  let eqv : (⟨1, ![n]⟩ : Shape).Idx ≃ Fin n :=
    { toFun := fun i => i 0, invFun := fun a => ix1 a, left_inv := fun i => (eq_ix1 i).symm, right_inv := fun _ => rfl }
  rw [← Equiv.sum_comp eqv.symm f]
  rfl

section PointScatter
variable {N E w : Nat} (wf : ScatterDims.WF ⟨1, ![N]⟩ ⟨2, ![E, 1]⟩ ⟨1, ![E]⟩ [] [0] [0] 1) (idx : IVec ⟨2, ![E, 1]⟩ w)

theorem pointScatter_start (e : Fin E) :
    (pointScatterDims N E wf).start (ix1 e) idx 0 = (idx (ix2 e (0 : Fin 1))).toInt := by
  unfold ScatterDims.start
  rw [dif_pos (show (0 : Fin 1) ∈ (pointScatterDims N E wf).scatterDimsToOperandDims from List.mem_singleton.mpr rfl)]
  have hsi : (pointScatterDims N E wf).siIdx (ix1 e) ⟨List.idxOf (0 : Fin 1) (pointScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem pointScatter_window (e : Fin E) : (pointScatterDims N E wf).window (ix1 e) 0 = 0 := by
  unfold ScatterDims.window
  have h0 : (0 : Fin 1) ∉ (pointScatterDims N E wf).sKept := by
    show (0 : Fin 1) ∉ (List.finRange 1).filter (· ∉ [(0 : Fin 1)])
    rw [List.mem_filter]
    simp
  rw [dif_neg h0]

/-- The update of edge e lands on n exactly when the edge's destination is n. -/
theorem pointScatter_lands (e : Fin E) (n : Fin N) :
    (pointScatterDims N E wf).resultIdx? (ix1 e) idx = some (ix1 n) ↔ (idx (ix2 e (0 : Fin 1))).toInt = (n.val : ℤ) := by
  rw [ScatterDims.resultIdx?_eq_some_iff]
  constructor
  · intro h
    have h0 := h 0
    rw [pointScatter_start, pointScatter_window] at h0
    have : ((n.val : ℕ) : ℤ) = (idx (ix2 e (0 : Fin 1))).toInt + ((0 : ℕ) : ℤ) := h0
    omega
  · intro h0 a
    match a with
    | ⟨0, _⟩ =>
      show ((n.val : ℕ) : ℤ) = (pointScatterDims N E wf).start (ix1 e) idx 0 + ((pointScatterDims N E wf).window (ix1 e) 0 : ℤ)
      rw [pointScatter_start, pointScatter_window, h0]; simp

/-- ONE NUMBER PER EDGE ADDED AT ITS DESTINATION, at n: the operand's element plus the sum over the edges of the
    edge's number where its destination is n. -/
theorem pointScatterAdd_apply (x : (⟨1, ![N]⟩ : Shape).Idx → EReal) (upd : (⟨1, ![E]⟩ : Shape).Idx → EReal) (n : Fin N) :
    Ideal.hostScatterAdd (pointScatterDims N E wf) x idx upd (ix1 n)
      = x (ix1 n) + ∑ e : Fin E, if (idx (ix2 e (0 : Fin 1))).toInt = (n.val : ℤ) then upd (ix1 e) else 0 := by
  unfold Ideal.hostScatterAdd
  congr 1
  rw [Finset.sum_filter, sum_idx1]
  refine Finset.sum_congr rfl fun e _ => ?_
  simp only [pointScatter_lands]

/-- The same with the edges' numbers named: the operand's element plus the weight that arrives. -/
theorem pointScatterAdd_weight (x : (⟨1, ![N]⟩ : Shape).Idx → EReal) (upd : (⟨1, ![E]⟩ : Shape).Idx → EReal) (n : Fin N) :
    Ideal.hostScatterAdd (pointScatterDims N E wf) x idx upd (ix1 n)
      = x (ix1 n) + weightInto idx (fun e => upd (ix1 e)) n :=
  pointScatterAdd_apply wf idx x upd n

end PointScatter

end Cert.EdgeSums

end
-- ==== Proof.HistCell.lean ====
/-
  One cell of a histogram that is built by a scatter-add over a flattened array.

  The [50000, 1000] array of confidences is flattened row by row, so sample n and class c' sit at position
  1000·n + c'.  Position (n, c') is sent to the segment 15·c' + (its bin), computed in 32-bit arithmetic, and a
  scatter-add into 15000 segments adds the update of every position to its segment.  A bin is a word in [0, 14]
  and c' < 1000, so 15·c' + bin < 15000 never wraps, and it equals 15·c + b exactly when c' = c and the bin is b
  (division with remainder by 15).  Hence the segment 15·c + b collects, over the samples n, the update at
  (n, c) of those samples whose class-c confidence falls into bin b: of the 1000 positions of a sample only the
  one of class c can arrive.  Addition of extended reals is commutative and associative, so the order in which a
  scatter meets the positions plays no part and nothing has to be finite.
-/
import proofs.«108759_j47012712022077_2_alg».proof.Proof.BinSpec
import proofs.«108759_j47012712022077_2_alg».proof.Proof.LibEdgeSums

noncomputable section

open scoped BigOperators

namespace Cert.Hist

open Idealize.ShloMosaic Idealize.ShloMosaic.ValueIdx Cert.EdgeSums

/-! ## Bin words and segment words -/

theorem toInt_zero32 : (0#32 : BitVec 32).toInt = 0 := by decide
theorem toInt_fourteen32 : (14#32 : BitVec 32).toInt = 14 := by decide

/-- A word clamped into [0, 14] as a signed integer is at most 14 as a natural number. -/
theorem clamp_toNat_le (v : BitVec 32) : (IntOp.minsi 14#32 (IntOp.maxsi 0#32 v)).toNat ≤ 14 := by
  unfold IntOp.minsi IntOp.maxsi
  by_cases h0 : v.slt 0#32 = true
  · rw [if_pos h0, if_neg (by decide)]
    decide
  · rw [if_neg h0]
    by_cases h1 : (14#32 : BitVec 32).slt v = true
    · rw [if_pos h1]; decide
    · rw [if_neg h1]
      rw [BitVec.slt_iff_toInt_lt] at h0 h1
      rw [toInt_zero32] at h0
      rw [toInt_fourteen32] at h1
      have e := BitVec.toInt_eq_toNat_cond v
      have hv := v.isLt
      split at e <;> omega

/-- A bin is a word between 0 and 14. -/
theorem binOf_toNat_le (x : EReal) : (binOf x).toNat ≤ 14 := clamp_toNat_le _

/-- The segment of class c' and bin word w: 15·c' + w in 32-bit arithmetic. -/
def segWord (c' : Fin 1000) (w : BitVec 32) : BitVec 32 :=
  IntOp.addi (IntOp.muli (BitVec.ofNat 32 c'.val) 15#32) w

/-- With w in [0, 14] nothing wraps: the segment's signed value is 15·c' + w. -/
theorem segWord_toInt (c' : Fin 1000) (w : BitVec 32) (hw : w.toNat ≤ 14) :
    (segWord c' w).toInt = ((c'.val * 15 + w.toNat : ℕ) : ℤ) := by
  unfold segWord IntOp.addi IntOp.muli
  have hc := c'.isLt
  have hn : (BitVec.ofNat 32 c'.val * 15#32 + w).toNat = c'.val * 15 + w.toNat := by
    rw [BitVec.toNat_add, BitVec.toNat_mul, BitVec.toNat_ofNat, BitVec.toNat_ofNat]
    omega
  rw [BitVec.toInt_eq_toNat_of_lt (by rw [hn]; omega), hn]

/-- The segment of (c', w) is the cell 15·c + b exactly when c' = c and w is the bin b. -/
theorem segWord_hits (c' c : Fin 1000) (b : Fin 15) (w : BitVec 32) (hw : w.toNat ≤ 14) :
    (segWord c' w).toInt = ((c.val * 15 + b.val : ℕ) : ℤ) ↔ c' = c ∧ w = BitVec.ofNat 32 b.val := by
  rw [segWord_toInt c' w hw]
  have hb := b.isLt
  constructor
  · intro h
    have h' : c'.val * 15 + w.toNat = c.val * 15 + b.val := by exact_mod_cast h
    refine ⟨Fin.ext (by omega), BitVec.eq_of_toNat_eq ?_⟩
    rw [BitVec.toNat_ofNat]
    omega
  · rintro ⟨rfl, rfl⟩
    rw [BitVec.toNat_ofNat]
    have : b.val % 2 ^ 32 = b.val := by omega
    rw [this]

/-! ## Positions of the flattened array -/

/-- Position of (sample n, class c) in the flattened [50000, 1000] array. -/
def flat (n : Fin 50000) (c : Fin 1000) : Fin 50000000 :=
  ⟨n.val * 1000 + c.val, by have := n.isLt; have := c.isLt; omega⟩

/-- The cell (class c, bin b) of the [1000, 15] table, as a segment number. -/
def cell (c : Fin 1000) (b : Fin 15) : Fin 15000 :=
  ⟨c.val * 15 + b.val, by have := c.isLt; have := b.isLt; omega⟩

/-- Division with remainder by 1000: the positions are the pairs (sample, class). -/
def flatEquiv : Fin 50000 × Fin 1000 ≃ Fin 50000000 where
  toFun p := flat p.1 p.2
  invFun e := (⟨e.val / 1000, by have := e.isLt; omega⟩, ⟨e.val % 1000, by omega⟩)
  left_inv p := by
    have h1 := p.1.isLt
    have h2 := p.2.isLt
    refine Prod.ext (Fin.ext ?_) (Fin.ext ?_)
    · show (p.1.val * 1000 + p.2.val) / 1000 = p.1.val
      omega
    · show (p.1.val * 1000 + p.2.val) % 1000 = p.2.val
      omega
  right_inv e := by
    refine Fin.ext ?_
    show e.val / 1000 * 1000 + e.val % 1000 = e.val
    omega

/-- A sum over the positions is a sum over the samples of a sum over the classes. -/
theorem sum_flat {M : Type*} [AddCommMonoid M] (f : Fin 50000000 → M) :
    ∑ e, f e = ∑ n : Fin 50000, ∑ c : Fin 1000, f (flat n c) := by
  rw [← Equiv.sum_comp flatEquiv f, Fintype.sum_prod_type]
  rfl

/-! ## The cell of a scatter-add by segments -/

/-- A SCATTER-ADD BY SEGMENTS, at the cell (c, b): where position (n, c') carries the segment of c' and of the bin
    of the confidence at (n, c'), the cell holds the operand's element plus the sum over the samples n of the update
    at (n, c) where that confidence falls into bin b. -/
theorem segScatterAdd_cell (wf : ScatterDims.WF ⟨1, ![15000]⟩ ⟨2, ![50000000, 1]⟩ ⟨1, ![50000000]⟩ [] [0] [0] 1)
    (sm : (⟨2, ![50000, 1000]⟩ : Shape).Idx → EReal) (seg : IVec ⟨2, ![50000000, 1]⟩ 32)
    (hseg : ∀ (n : Fin 50000) (c' : Fin 1000), seg (ix2 (flat n c') (0 : Fin 1)) = segWord c' (binOf (sm (ix2 n c'))))
    (z : (⟨1, ![15000]⟩ : Shape).Idx → EReal) (upd : (⟨1, ![50000000]⟩ : Shape).Idx → EReal) (c : Fin 1000) (b : Fin 15) :
    Ideal.hostScatterAdd (pointScatterDims 15000 50000000 wf) z seg upd (ix1 (cell c b))
      = z (ix1 (cell c b))
        + ∑ n : Fin 50000, if binOf (sm (ix2 n c)) = BitVec.ofNat 32 b.val then upd (ix1 (flat n c)) else 0 := by
  rw [pointScatterAdd_apply, sum_flat]
  refine congrArg (z (ix1 (cell c b)) + ·) (Finset.sum_congr rfl fun n _ => ?_)
  have hterm : ∀ c' : Fin 1000,
      (if (seg (ix2 (flat n c') (0 : Fin 1))).toInt = ((cell c b).val : ℤ) then upd (ix1 (flat n c')) else 0)
        = if c' = c then (if binOf (sm (ix2 n c')) = BitVec.ofNat 32 b.val then upd (ix1 (flat n c')) else 0) else 0 := by
    intro c'
    rw [hseg n c']
    have hit := segWord_hits c' c b (binOf (sm (ix2 n c'))) (binOf_toNat_le _)
    by_cases hc : c' = c
    · rw [if_pos hc]
      refine if_congr ?_ rfl rfl
      rw [show ((cell c b).val : ℤ) = ((c.val * 15 + b.val : ℕ) : ℤ) from rfl, hit]
      exact and_iff_right hc
    · rw [if_neg hc, if_neg]
      rw [show ((cell c b).val : ℤ) = ((c.val * 15 + b.val : ℕ) : ℤ) from rfl, hit]
      exact fun h => hc h.1
  rw [Finset.sum_congr rfl (fun c' _ => hterm c'), Finset.sum_ite_eq' Finset.univ c, if_pos (Finset.mem_univ _)]

/-! ## The one-hot label array -/

/-- The float of the one-bit word "l = k": one when the words agree, zero otherwise. -/
theorem uitofp_cmpi_eq (l k : BitVec 32) :
    FloatOps.uitofp (F := Ideal) .f32 (IntOp.cmpi .eq l k) = if l = k then (1 : EReal) else 0 := by
  unfold IntOp.cmpi
  show (((BitVec.ofBool (l == k)).toNat : ℝ) : EReal) = _
  by_cases h : l = k
  · subst h; simp
  · simp [h]

end Cert.Hist

end
-- ==== Proof.RefValue.lean ====
/-
  The reference program's value as sums over the samples.

  The reference computes, for every sample n and class c', the bin of the confidence at (n, c') and from it the
  segment 15·c' + bin; it flattens the [50000, 1000] arrays row by row and builds three flat tables of 15000 segments
  by scatter-add — of the float one, of the confidence, and of the indicator "sample n is labelled c'" — which it
  reshapes to [1000, 15] and hands to the common tail.  Read at the cell (c, b), each table is a sum over the samples:
  the reshape reads segment 15·c + b, the scatter-add there collects the positions whose segment is 15·c + b, and a
  position (n, c') has that segment exactly when c' = c and its bin is b.  What is left is the count, the confidence
  sum and the label count of the specification, term by term; the scatters start from zero.
-/
import proofs.«108759_j47012712022077_2_alg».proof.Proof.BinSpec
import proofs.«108759_j47012712022077_2_alg».proof.Proof.HistTail
import proofs.«108759_j47012712022077_2_alg».proof.Proof.HistCell
import proofs.«108759_j47012712022077_2_alg».proof.Proof.RefReadP

noncomputable section

open scoped BigOperators

namespace Cert.Hist.Ref

open Idealize.ShloMosaic Idealize.ShloMosaic.ValueIdx Cert.EdgeSums Cert.ReferenceIdeal Cert.ReferenceIdeal.ReadP

/-- The confidences: a [50000, 1000] array of extended reals. -/
abbrev Conf : Type := (⟨S50000x1000, .f32⟩ : BufTy).Contents (Elt Ideal)
/-- The labels: 50000 words. -/
abbrev Lbl : Type := (⟨S50000, .i32⟩ : BufTy).Contents (Elt Ideal)

/-! ## The tail -/

/-- The reference's last operations are the common tail of its three tables. -/
theorem tail_eq (x0 : Conf) (x1 : Lbl) :
    val_main_v50 (F := Ideal) x0 x1
      = histTail (val_main_v25 (F := Ideal) x0) (val_main_v30 (F := Ideal) x0) (val_main_v35 (F := Ideal) x0 x1) := by
  unfold val_main_v50 val_main_v49 val_main_v48 val_main_v47 val_main_v46 val_main_v45 val_main_v44 val_main_v43
    val_main_v42 val_main_v41 val_main_v40 val_main_v39 val_main_v38 val_main_v37 val_main_v36 val_main_call1_v1
    val_main_call1_v0 val_main_cst_7 val_main_cst_8 val_main_cst_9 val_main_cst_10 val_main_cst_11 val_main_cst_12
    val_main_cst_13 histTail
  rfl

/-! ## The segment of a position -/

/-- The clamped word the reference computes at (n, c) is the bin of the confidence there. -/
theorem bin_at (x0 : Conf) (n : Fin 50000) (c : Fin 1000) :
    val_main_v6 (F := Ideal) x0 (ix2 n c) = binOf (x0 (ix2 n c)) := by
  rw [val_main_v6_apply, val_main_call0_v4_apply, val_main_call0_v3_apply, val_main_c_1_apply,
    val_main_call0_v2_apply, val_main_call0_v1_apply, val_main_call0_v0_apply, val_main_c_0_apply,
    val_main_v5_apply, val_main_v3_apply, val_main_v2_apply, val_main_v1_apply, val_main_v0_apply, val_main_cst_apply,
    val_main_v4_apply, val_main_c_apply]
  rfl

/-- The segment the reference computes at (n, c'): 15 times the class number plus the bin. -/
theorem seg_at (x0 : Conf) (n : Fin 50000) (c' : Fin 1000) :
    val_main_v12 (F := Ideal) x0 (ix2 n c') = segWord c' (binOf (x0 (ix2 n c'))) := by
  rw [val_main_v12_apply, bin_at, val_main_v11_apply, val_main_v10_apply, val_main_v8_apply, val_main_v7_apply,
    val_main_v9_apply, val_main_c_2_apply]
  rfl

/-- Position 1000·n + c' of a flattened [50000, 1000] array is its entry (n, c'). -/
theorem unflat (n : Fin 50000) (c' : Fin 1000) : idx_main_v13 (ix1 (flat n c')) = ix2 n c' := by
  funext a
  refine Fin.ext ?_
  have hn := n.isLt
  have hc := c'.isLt
  match a with
  | ⟨0, _⟩ =>
    show (n.val * 1000 + c'.val) / 1000 = n.val
    omega
  | ⟨1, _⟩ =>
    show (n.val * 1000 + c'.val) % 1000 = c'.val
    omega

/-- The index array of the scatters holds, at position 1000·n + c', the segment of (n, c'). -/
theorem segIdx_at (x0 : Conf) (n : Fin 50000) (c' : Fin 1000) :
    val_main_v23 (F := Ideal) x0 (ix2 (flat n c') (0 : Fin 1)) = segWord c' (binOf (x0 (ix2 n c'))) := by
  rw [val_main_v23_apply, val_main_v13_apply]
  have hi : idx_main_v23 (ix2 (flat n c') (0 : Fin 1)) = ix1 (flat n c') := by
    funext a; match a with | ⟨0, _⟩ => rfl
  rw [hi, unflat, seg_at]

/-- The three scatters read the same index array. -/
theorem v28_eq (x0 : Conf) : val_main_v28 (F := Ideal) x0 = val_main_v23 (F := Ideal) x0 := rfl
theorem v33_eq (x0 : Conf) : val_main_v33 (F := Ideal) x0 = val_main_v23 (F := Ideal) x0 := rfl

/-! ## The operands and the updates -/

theorem zero22 (i : S15000.Idx) : val_main_v22 (F := Ideal) i = 0 := by
  rw [val_main_v22_apply, val_main_cst_4_apply]
  exact Ideal.ofBits_zero_f32

theorem zero27 (i : S15000.Idx) : val_main_v27 (F := Ideal) i = 0 := by
  rw [val_main_v27_apply, val_main_cst_5_apply]
  exact Ideal.ofBits_zero_f32

theorem zero32 (i : S15000.Idx) : val_main_v32 (F := Ideal) i = 0 := by
  rw [val_main_v32_apply, val_main_cst_6_apply]
  exact Ideal.ofBits_zero_f32

/-- The counting scatter's updates are all the float one. -/
theorem one21 (i : S50000000.Idx) : val_main_v21 (F := Ideal) i = fone := by
  rw [val_main_v21_apply, val_main_cst_3_apply]

/-- The confidence scatter's update at position 1000·n + c is the confidence at (n, c). -/
theorem conf26 (x0 : Conf) (n : Fin 50000) (c : Fin 1000) :
    val_main_v26 (F := Ideal) x0 (ix1 (flat n c)) = x0 (ix2 n c) := by
  rw [val_main_v26_apply]
  exact congrArg x0 (unflat n c)

/-- The label scatter's update at position 1000·n + c is one when sample n is labelled c, zero otherwise. -/
theorem lab31 (x1 : Lbl) (n : Fin 50000) (c : Fin 1000) :
    val_main_v31 (F := Ideal) x1 (ix1 (flat n c))
      = if x1 (ix1 n) = BitVec.ofNat 32 c.val then (1 : EReal) else 0 := by
  rw [val_main_v31_apply]
  have hi : idx_main_v31 (ix1 (flat n c)) = ix2 n c := unflat n c
  rw [hi, val_main_v20_apply, val_main_v19_apply, val_main_v17_apply, val_main_v14_apply, val_main_v18_apply,
    val_main_v16_apply, val_main_v15_apply, uitofp_cmpi_eq]
  have h1 : idx_main_v14 (idx_main_v17 (ix2 n c)) = ix1 n := by
    funext a; match a with | ⟨0, _⟩ => rfl
  rw [h1]

/-! ## The scatters -/

/-- The reference's scatter-add is the scatter-add of one number per position into 15000 segments. -/
theorem scatter_eq (z : S15000.Idx → EReal) (idx : IVec S50000000x1 32) (upd : S50000000.Idx → EReal) :
    Host.scatterAdd (F := Ideal) (φ := .f32) scatter_S15000_S50000000x1_S50000000_n_0_0_1 z idx upd
      = Ideal.hostScatterAdd
          (pointScatterDims 15000 50000000 Facts₀.scatter_S15000_S50000000x1_S50000000_n_0_0_1_wf) z idx upd := rfl

/-! ## The three tables -/

/-- The cell (c, b) of a [1000, 15] table is element 15·c + b of the flat table it is reshaped from. -/
theorem cellIdx25 (c : Fin 1000) (b : Fin 15) : idx_main_v25 (ix2 c b) = ix1 (cell c b) := by
  funext a; match a with | ⟨0, _⟩ => rfl
theorem cellIdx30 (c : Fin 1000) (b : Fin 15) : idx_main_v30 (ix2 c b) = ix1 (cell c b) := by
  funext a; match a with | ⟨0, _⟩ => rfl
theorem cellIdx35 (c : Fin 1000) (b : Fin 15) : idx_main_v35 (ix2 c b) = ix1 (cell c b) := by
  funext a; match a with | ⟨0, _⟩ => rfl

/-- The count table's cell (c, b): how many samples fall into bin b for class c. -/
theorem cnt_cell (x0 : Conf) (c : Fin 1000) (b : Fin 15) :
    val_main_v25 (F := Ideal) x0 (ix2 c b) = cntG x0 c b := by
  rw [val_main_v25_apply, cellIdx25]
  unfold val_main_v24
  rw [scatter_eq, segScatterAdd_cell _ x0 _ (segIdx_at x0), zero22, zero_add]
  unfold cntG
  refine Finset.sum_congr rfl fun n _ => ?_
  rw [one21]

/-- The confidence table's cell (c, b): the sum of the class-c confidences that fall into bin b. -/
theorem conf_cell (x0 : Conf) (c : Fin 1000) (b : Fin 15) :
    val_main_v30 (F := Ideal) x0 (ix2 c b) = confG x0 c b := by
  rw [val_main_v30_apply, cellIdx30]
  unfold val_main_v29
  rw [scatter_eq, v28_eq, segScatterAdd_cell _ x0 _ (segIdx_at x0), zero27, zero_add]
  unfold confG
  refine Finset.sum_congr rfl fun n _ => ?_
  rw [conf26]

/-- The label table's cell (c, b): how many samples labelled c fall into bin b for class c. -/
theorem corr_cell (x0 : Conf) (x1 : Lbl) (c : Fin 1000) (b : Fin 15) :
    val_main_v35 (F := Ideal) x0 x1 (ix2 c b) = corrG x0 x1 c b := by
  rw [val_main_v35_apply, cellIdx35]
  unfold val_main_v34
  rw [scatter_eq, v33_eq, segScatterAdd_cell _ x0 _ (segIdx_at x0), zero32, zero_add]
  unfold corrG
  refine Finset.sum_congr rfl fun n _ => ?_
  rw [lab31]
  by_cases h1 : binOf (x0 (ix2 n c)) = BitVec.ofNat 32 b.val <;>
    by_cases h2 : x1 (ix1 n) = BitVec.ofNat 32 c.val <;> simp [h1, h2]

theorem cnt_table (x0 : Conf) : val_main_v25 (F := Ideal) x0 = fun i => cntG x0 (i 0) (i 1) := by
  funext i
  obtain ⟨c, b, rfl⟩ : ∃ (c : Fin 1000) (b : Fin 15), i = ix2 c b := ⟨i 0, i 1, eq_ix2 i⟩
  exact cnt_cell x0 c b

theorem conf_table (x0 : Conf) : val_main_v30 (F := Ideal) x0 = fun i => confG x0 (i 0) (i 1) := by
  funext i
  obtain ⟨c, b, rfl⟩ : ∃ (c : Fin 1000) (b : Fin 15), i = ix2 c b := ⟨i 0, i 1, eq_ix2 i⟩
  exact conf_cell x0 c b

theorem corr_table (x0 : Conf) (x1 : Lbl) :
    val_main_v35 (F := Ideal) x0 x1 = fun i => corrG x0 x1 (i 0) (i 1) := by
  funext i
  obtain ⟨c, b, rfl⟩ : ∃ (c : Fin 1000) (b : Fin 15), i = ix2 c b := ⟨i 0, i 1, eq_ix2 i⟩
  exact corr_cell x0 x1 c b

/-! ## The reference's value -/

/-- THE REFERENCE'S RESULT is the common tail of the three sums over the samples. -/
theorem ref_value (x0 : Conf) (x1 : Lbl) :
    val_main_v50 (F := Ideal) x0 x1
      = histTail (fun i => cntG x0 (i 0) (i 1)) (fun i => confG x0 (i 0) (i 1))
          (fun i => corrG x0 x1 (i 0) (i 1)) := by
  rw [tail_eq, cnt_table, conf_table, corr_table]

end Cert.Hist.Ref

end
-- ==== Proof.Tables.lean ====
/-
  What one grid point leaves in the three running tables.

  The kernel keeps three [15, 1000] tables in scratch memory: counts, confidence sums and label counts per bin and
  class.  At every point it adds the tile's contribution to each table; at the first point of a core's half of the
  rows it first clears them, and at the last one it copies them out as the core's [1, 15, 1000] block of each result.
  The three contributions are named here as functions of the tile, the tile's labels and the table's previous
  contents, at any float instance; each case of the body is then shown to leave exactly these terms.
-/
import proofs.«108759_j47012712022077_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Tables

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The counts table after a tile: the previous table plus, per bin, the column sums of "one where the entry's bin is
    this bin, zero elsewhere", the fifteen rows stacked. -/
def updCnt (x0 : Vec F S1000x1000 .f32) (acc : Vec F S15x1000 .f32) : FVec F S15x1000 .f32 :=
  k0_pay57 (k0_pay13 (F := F) (k0_pay9 x0)) (k0_pay16 (F := F) (k0_pay9 x0)) (k0_pay19 (F := F) (k0_pay9 x0))
    (k0_pay22 (k0_pay21 (k0_pay9 x0)) (Scalar.ofBits .f32 0x3F800000#32)) (k0_pay25 (F := F) (k0_pay9 x0))
    (k0_pay28 (F := F) (k0_pay9 x0)) (k0_pay31 (F := F) (k0_pay9 x0)) (k0_pay35 (F := F) (k0_pay9 x0))
    (k0_pay38 (F := F) (k0_pay9 x0)) (k0_pay41 (F := F) (k0_pay9 x0))
    (k0_pay44 (k0_pay43 (k0_pay9 x0)) (Scalar.ofBits .f32 0x3F800000#32) (Scalar.ofBits .f32 0x00000000#32))
    (k0_pay47 (F := F) (k0_pay9 x0)) (k0_pay50 (F := F) (k0_pay9 x0)) (k0_pay53 (F := F) (k0_pay9 x0))
    (k0_pay55 (k0_pay9 x0)) acc

/-- The confidence-sum table after a tile: the previous table plus, per bin, the column sums of "the entry where its
    bin is this bin, zero elsewhere". -/
def updConf (x0 : Vec F S1000x1000 .f32) (acc : Vec F S15x1000 .f32) : FVec F S15x1000 .f32 :=
  k0_pay58 (k0_pay14 x0 (k0_pay9 x0)) (k0_pay17 x0 (k0_pay9 x0)) (k0_pay20 x0 (k0_pay9 x0))
    (k0_pay23 x0 (k0_pay21 (k0_pay9 x0))) (k0_pay26 x0 (k0_pay9 x0)) (k0_pay29 x0 (k0_pay9 x0))
    (k0_pay33 x0 (k0_pay30 (k0_pay9 x0)) (k0_pay32 (F := F))) (k0_pay36 x0 (k0_pay9 x0)) (k0_pay39 x0 (k0_pay9 x0))
    (k0_pay42 x0 (k0_pay9 x0)) (k0_pay45 x0 (k0_pay43 (k0_pay9 x0))) (k0_pay48 x0 (k0_pay9 x0))
    (k0_pay51 x0 (k0_pay9 x0)) (k0_pay54 x0 (k0_pay9 x0)) (k0_pay56 x0 (k0_pay55 (k0_pay9 x0))) acc

/-- The label-count table after a tile: the previous table plus the product of the transposed one-hot "row's bin" array
    with the one-hot "row's label" array. -/
def updCorr (x0 : Vec F S1000x1000 .f32) (x1 : Vec F S1000x1 .i32) (acc : Vec F S15x1000 .f32) : FVec F S15x1000 .f32 :=
  k0_pay59 (k0_pay11 (k0_pay8 (F := F) x1) (k0_pay10 x0 x1)) acc

/-! ## A point that is neither a half's first nor its last -/

theorem sout0_B_0_eq (c : Dev nD) (i : grid0.Coords) (arg2 : Memref sig .tc .vmem S1000x1000 .f32) (harg2 : arg2.IsWhole) (arg3 : Memref sig .tc .vmem S1000x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (arg7 : Memref sig .tc .vmem S15x1000 .f32) (harg7 : arg7.IsWhole) (arg8 : Memref sig .tc .vmem S15x1000 .f32) (harg8 : arg8.IsWhole) (arg9 : Memref sig .tc .vmem S15x1000 .f32) (harg9 : arg9.IsWhole) (hc0 : ¬cond0_0 i) (hc1 : ¬cond0_1 i)
    (x0 : Vec F S1000x1000 .f32) (x1 : Vec F S1000x1 .i32) (xs0 xs1 xs2 : Vec F S15x1000 .f32) :
    sout0_B_0 c i arg2 harg2 arg3 harg3 arg4 harg4 arg5 harg5 arg6 harg6 arg7 harg7 arg8 harg8 arg9 harg9 hc0 hc1 x0 x1 xs0 xs1 xs2 = updCnt x0 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz2]
  simp only [View.readAt_eq_ld, harg2.read_unread, harg3.read_unread, harg7.read_unread, harg8.read_unread, harg9.read_unread,
    View.ld_unit_zero (S := S15x1000) hz2, View.ld_unit_zero (S := S1000x1000) hz2, View.ld_unit_zero (S := S1000x1) hz2]
  rfl

theorem sout0_B_1_eq (c : Dev nD) (i : grid0.Coords) (arg2 : Memref sig .tc .vmem S1000x1000 .f32) (harg2 : arg2.IsWhole) (arg3 : Memref sig .tc .vmem S1000x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (arg7 : Memref sig .tc .vmem S15x1000 .f32) (harg7 : arg7.IsWhole) (arg8 : Memref sig .tc .vmem S15x1000 .f32) (harg8 : arg8.IsWhole) (arg9 : Memref sig .tc .vmem S15x1000 .f32) (harg9 : arg9.IsWhole) (hc0 : ¬cond0_0 i) (hc1 : ¬cond0_1 i)
    (x0 : Vec F S1000x1000 .f32) (x1 : Vec F S1000x1 .i32) (xs0 xs1 xs2 : Vec F S15x1000 .f32) :
    sout0_B_1 c i arg2 harg2 arg3 harg3 arg4 harg4 arg5 harg5 arg6 harg6 arg7 harg7 arg8 harg8 arg9 harg9 hc0 hc1 x0 x1 xs0 xs1 xs2 = updConf x0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz2]
  simp only [View.readAt_eq_ld, harg2.read_unread, harg3.read_unread, harg7.read_unread, harg8.read_unread, harg9.read_unread,
    View.ld_unit_zero (S := S15x1000) hz2, View.ld_unit_zero (S := S1000x1000) hz2, View.ld_unit_zero (S := S1000x1) hz2]
  rfl

theorem sout0_B_2_eq (c : Dev nD) (i : grid0.Coords) (arg2 : Memref sig .tc .vmem S1000x1000 .f32) (harg2 : arg2.IsWhole) (arg3 : Memref sig .tc .vmem S1000x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (arg7 : Memref sig .tc .vmem S15x1000 .f32) (harg7 : arg7.IsWhole) (arg8 : Memref sig .tc .vmem S15x1000 .f32) (harg8 : arg8.IsWhole) (arg9 : Memref sig .tc .vmem S15x1000 .f32) (harg9 : arg9.IsWhole) (hc0 : ¬cond0_0 i) (hc1 : ¬cond0_1 i)
    (x0 : Vec F S1000x1000 .f32) (x1 : Vec F S1000x1 .i32) (xs0 xs1 xs2 : Vec F S15x1000 .f32) :
    sout0_B_2 c i arg2 harg2 arg3 harg3 arg4 harg4 arg5 harg5 arg6 harg6 arg7 harg7 arg8 harg8 arg9 harg9 hc0 hc1 x0 x1 xs0 xs1 xs2 = updCorr x0 x1 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 xs0 xs1 xs2)]
  unfold kernelRun0_B
  dsimp only
  sl_unfold_words
  rw [View.canon_unit_zero hz2]
  simp only [View.readAt_eq_ld, harg2.read_unread, harg3.read_unread, harg7.read_unread, harg8.read_unread, harg9.read_unread,
    View.ld_unit_zero (S := S15x1000) hz2, View.ld_unit_zero (S := S1000x1000) hz2, View.ld_unit_zero (S := S1000x1) hz2]
  rfl

/-! ## A half's last point: the same, and the tables copied out -/

theorem sout0_C_0_eq (c : Dev nD) (i : grid0.Coords) (arg2 : Memref sig .tc .vmem S1000x1000 .f32) (harg2 : arg2.IsWhole) (arg3 : Memref sig .tc .vmem S1000x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (arg7 : Memref sig .tc .vmem S15x1000 .f32) (harg7 : arg7.IsWhole) (arg8 : Memref sig .tc .vmem S15x1000 .f32) (harg8 : arg8.IsWhole) (arg9 : Memref sig .tc .vmem S15x1000 .f32) (harg9 : arg9.IsWhole) (hc0 : ¬cond0_0 i) (hc1 : cond0_1 i)
    (x0 : Vec F S1000x1000 .f32) (x1 : Vec F S1000x1 .i32) (xs0 xs1 xs2 : Vec F S15x1000 .f32) :
    sout0_C_0 c i arg2 harg2 arg3 harg3 arg4 harg4 arg5 harg5 arg6 harg6 arg7 harg7 arg8 harg8 arg9 harg9 hc0 hc1 x0 x1 xs0 xs1 xs2 = updCnt x0 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz2]
  simp only [View.readAt_eq_ld, harg2.read_unread, harg3.read_unread, harg7.read_unread, harg8.read_unread, harg9.read_unread,
    View.ld_unit_zero (S := S15x1000) hz2, View.ld_unit_zero (S := S1000x1000) hz2, View.ld_unit_zero (S := S1000x1) hz2]
  rfl

theorem sout0_C_1_eq (c : Dev nD) (i : grid0.Coords) (arg2 : Memref sig .tc .vmem S1000x1000 .f32) (harg2 : arg2.IsWhole) (arg3 : Memref sig .tc .vmem S1000x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (arg7 : Memref sig .tc .vmem S15x1000 .f32) (harg7 : arg7.IsWhole) (arg8 : Memref sig .tc .vmem S15x1000 .f32) (harg8 : arg8.IsWhole) (arg9 : Memref sig .tc .vmem S15x1000 .f32) (harg9 : arg9.IsWhole) (hc0 : ¬cond0_0 i) (hc1 : cond0_1 i)
    (x0 : Vec F S1000x1000 .f32) (x1 : Vec F S1000x1 .i32) (xs0 xs1 xs2 : Vec F S15x1000 .f32) :
    sout0_C_1 c i arg2 harg2 arg3 harg3 arg4 harg4 arg5 harg5 arg6 harg6 arg7 harg7 arg8 harg8 arg9 harg9 hc0 hc1 x0 x1 xs0 xs1 xs2 = updConf x0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz2]
  simp only [View.readAt_eq_ld, harg2.read_unread, harg3.read_unread, harg7.read_unread, harg8.read_unread, harg9.read_unread,
    View.ld_unit_zero (S := S15x1000) hz2, View.ld_unit_zero (S := S1000x1000) hz2, View.ld_unit_zero (S := S1000x1) hz2]
  rfl

theorem sout0_C_2_eq (c : Dev nD) (i : grid0.Coords) (arg2 : Memref sig .tc .vmem S1000x1000 .f32) (harg2 : arg2.IsWhole) (arg3 : Memref sig .tc .vmem S1000x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (arg7 : Memref sig .tc .vmem S15x1000 .f32) (harg7 : arg7.IsWhole) (arg8 : Memref sig .tc .vmem S15x1000 .f32) (harg8 : arg8.IsWhole) (arg9 : Memref sig .tc .vmem S15x1000 .f32) (harg9 : arg9.IsWhole) (hc0 : ¬cond0_0 i) (hc1 : cond0_1 i)
    (x0 : Vec F S1000x1000 .f32) (x1 : Vec F S1000x1 .i32) (xs0 xs1 xs2 : Vec F S15x1000 .f32) :
    sout0_C_2 c i arg2 harg2 arg3 harg3 arg4 harg4 arg5 harg5 arg6 harg6 arg7 harg7 arg8 harg8 arg9 harg9 hc0 hc1 x0 x1 xs0 xs1 xs2 = updCorr x0 x1 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz2]
  simp only [View.readAt_eq_ld, harg2.read_unread, harg3.read_unread, harg7.read_unread, harg8.read_unread, harg9.read_unread,
    View.ld_unit_zero (S := S15x1000) hz2, View.ld_unit_zero (S := S1000x1000) hz2, View.ld_unit_zero (S := S1000x1) hz2]
  rfl

theorem out0_C_2_eq (c : Dev nD) (i : grid0.Coords) (arg2 : Memref sig .tc .vmem S1000x1000 .f32) (harg2 : arg2.IsWhole) (arg3 : Memref sig .tc .vmem S1000x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (arg7 : Memref sig .tc .vmem S15x1000 .f32) (harg7 : arg7.IsWhole) (arg8 : Memref sig .tc .vmem S15x1000 .f32) (harg8 : arg8.IsWhole) (arg9 : Memref sig .tc .vmem S15x1000 .f32) (harg9 : arg9.IsWhole) (hc0 : ¬cond0_0 i) (hc1 : cond0_1 i)
    (x0 : Vec F S1000x1000 .f32) (x1 : Vec F S1000x1 .i32) (xs0 xs1 xs2 : Vec F S15x1000 .f32) :
    out0_C_2 c i arg2 harg2 arg3 harg3 arg4 harg4 arg5 harg5 arg6 harg6 arg7 harg7 arg8 harg8 arg9 harg9 hc0 hc1 x0 x1 xs0 xs1 xs2 = k0_pay1 (updCnt x0 xs0) := by
  unfold out0_C_2
  rw [View.read_writes_eq_canon _ _ _ (cover0_C_2 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [View.readCov_unit_zero (S := S15x1000) _ hz2]
  simp only [View.readAt_eq_ld, harg2.read_unread, harg3.read_unread, harg7.read_unread, harg8.read_unread, harg9.read_unread,
    View.ld_unit_zero (S := S15x1000) hz2, View.ld_unit_zero (S := S1000x1000) hz2, View.ld_unit_zero (S := S1000x1) hz2]
  rfl

theorem out0_C_3_eq (c : Dev nD) (i : grid0.Coords) (arg2 : Memref sig .tc .vmem S1000x1000 .f32) (harg2 : arg2.IsWhole) (arg3 : Memref sig .tc .vmem S1000x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (arg7 : Memref sig .tc .vmem S15x1000 .f32) (harg7 : arg7.IsWhole) (arg8 : Memref sig .tc .vmem S15x1000 .f32) (harg8 : arg8.IsWhole) (arg9 : Memref sig .tc .vmem S15x1000 .f32) (harg9 : arg9.IsWhole) (hc0 : ¬cond0_0 i) (hc1 : cond0_1 i)
    (x0 : Vec F S1000x1000 .f32) (x1 : Vec F S1000x1 .i32) (xs0 xs1 xs2 : Vec F S15x1000 .f32) :
    out0_C_3 c i arg2 harg2 arg3 harg3 arg4 harg4 arg5 harg5 arg6 harg6 arg7 harg7 arg8 harg8 arg9 harg9 hc0 hc1 x0 x1 xs0 xs1 xs2 = k0_pay2 (updConf x0 xs1) := by
  unfold out0_C_3
  rw [View.read_writes_eq_canon _ _ _ (cover0_C_3 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [View.readCov_unit_zero (S := S15x1000) _ hz2]
  simp only [View.readAt_eq_ld, harg2.read_unread, harg3.read_unread, harg7.read_unread, harg8.read_unread, harg9.read_unread,
    View.ld_unit_zero (S := S15x1000) hz2, View.ld_unit_zero (S := S1000x1000) hz2, View.ld_unit_zero (S := S1000x1) hz2]
  rfl

theorem out0_C_4_eq (c : Dev nD) (i : grid0.Coords) (arg2 : Memref sig .tc .vmem S1000x1000 .f32) (harg2 : arg2.IsWhole) (arg3 : Memref sig .tc .vmem S1000x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (arg7 : Memref sig .tc .vmem S15x1000 .f32) (harg7 : arg7.IsWhole) (arg8 : Memref sig .tc .vmem S15x1000 .f32) (harg8 : arg8.IsWhole) (arg9 : Memref sig .tc .vmem S15x1000 .f32) (harg9 : arg9.IsWhole) (hc0 : ¬cond0_0 i) (hc1 : cond0_1 i)
    (x0 : Vec F S1000x1000 .f32) (x1 : Vec F S1000x1 .i32) (xs0 xs1 xs2 : Vec F S15x1000 .f32) :
    out0_C_4 c i arg2 harg2 arg3 harg3 arg4 harg4 arg5 harg5 arg6 harg6 arg7 harg7 arg8 harg8 arg9 harg9 hc0 hc1 x0 x1 xs0 xs1 xs2 = k0_pay3 (updCorr x0 x1 xs2) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 xs0 xs1 xs2)]
  unfold kernelRun0_C
  dsimp only
  sl_unfold_words
  rw [View.canon_unit_zero hz3]
  simp only [View.readCov_unit_zero (S := S15x1000) _ hz2]
  simp only [View.readAt_eq_ld, harg2.read_unread, harg3.read_unread, harg7.read_unread, harg8.read_unread, harg9.read_unread,
    View.ld_unit_zero (S := S15x1000) hz2, View.ld_unit_zero (S := S1000x1000) hz2, View.ld_unit_zero (S := S1000x1) hz2]
  rfl

/-! ## A half's first point: the tables cleared, then the same -/

theorem sout0_A_0_eq (c : Dev nD) (i : grid0.Coords) (arg2 : Memref sig .tc .vmem S1000x1000 .f32) (harg2 : arg2.IsWhole) (arg3 : Memref sig .tc .vmem S1000x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (arg7 : Memref sig .tc .vmem S15x1000 .f32) (harg7 : arg7.IsWhole) (arg8 : Memref sig .tc .vmem S15x1000 .f32) (harg8 : arg8.IsWhole) (arg9 : Memref sig .tc .vmem S15x1000 .f32) (harg9 : arg9.IsWhole) (hc0 : cond0_0 i) (hc1 : ¬cond0_1 i)
    (x0 : Vec F S1000x1000 .f32) (x1 : Vec F S1000x1 .i32) :
    sout0_A_0 c i arg2 harg2 arg3 harg3 arg4 harg4 arg5 harg5 arg6 harg6 arg7 harg7 arg8 harg8 arg9 harg9 hc0 hc1 x0 x1 = updCnt x0 (k0_pay4 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S15x1000) hz2, View.readCov_unit_zero (S := S15x1000) _ hz2]
  simp only [View.readAt_eq_ld, harg2.read_unread, harg3.read_unread, harg7.read_unread, harg8.read_unread, harg9.read_unread,
    View.ld_unit_zero (S := S15x1000) hz2, View.ld_unit_zero (S := S1000x1000) hz2, View.ld_unit_zero (S := S1000x1) hz2]
  rfl

theorem sout0_A_1_eq (c : Dev nD) (i : grid0.Coords) (arg2 : Memref sig .tc .vmem S1000x1000 .f32) (harg2 : arg2.IsWhole) (arg3 : Memref sig .tc .vmem S1000x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (arg7 : Memref sig .tc .vmem S15x1000 .f32) (harg7 : arg7.IsWhole) (arg8 : Memref sig .tc .vmem S15x1000 .f32) (harg8 : arg8.IsWhole) (arg9 : Memref sig .tc .vmem S15x1000 .f32) (harg9 : arg9.IsWhole) (hc0 : cond0_0 i) (hc1 : ¬cond0_1 i)
    (x0 : Vec F S1000x1000 .f32) (x1 : Vec F S1000x1 .i32) :
    sout0_A_1 c i arg2 harg2 arg3 harg3 arg4 harg4 arg5 harg5 arg6 harg6 arg7 harg7 arg8 harg8 arg9 harg9 hc0 hc1 x0 x1 = updConf x0 (k0_pay5 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S15x1000) hz2, View.readCov_unit_zero (S := S15x1000) _ hz2]
  simp only [View.readAt_eq_ld, harg2.read_unread, harg3.read_unread, harg7.read_unread, harg8.read_unread, harg9.read_unread,
    View.ld_unit_zero (S := S15x1000) hz2, View.ld_unit_zero (S := S1000x1000) hz2, View.ld_unit_zero (S := S1000x1) hz2]
  rfl

theorem sout0_A_2_eq (c : Dev nD) (i : grid0.Coords) (arg2 : Memref sig .tc .vmem S1000x1000 .f32) (harg2 : arg2.IsWhole) (arg3 : Memref sig .tc .vmem S1000x1 .i32) (harg3 : arg3.IsWhole) (arg4 : Memref sig .tc .vmem S1x15x1000 .f32) (harg4 : arg4.IsWhole) (arg5 : Memref sig .tc .vmem S1x15x1000 .f32) (harg5 : arg5.IsWhole) (arg6 : Memref sig .tc .vmem S1x15x1000 .f32) (harg6 : arg6.IsWhole) (arg7 : Memref sig .tc .vmem S15x1000 .f32) (harg7 : arg7.IsWhole) (arg8 : Memref sig .tc .vmem S15x1000 .f32) (harg8 : arg8.IsWhole) (arg9 : Memref sig .tc .vmem S15x1000 .f32) (harg9 : arg9.IsWhole) (hc0 : cond0_0 i) (hc1 : ¬cond0_1 i)
    (x0 : Vec F S1000x1000 .f32) (x1 : Vec F S1000x1 .i32) :
    sout0_A_2 c i arg2 harg2 arg3 harg3 arg4 harg4 arg5 harg5 arg6 harg6 arg7 harg7 arg8 harg8 arg9 harg9 hc0 hc1 x0 x1 = updCorr x0 x1 (k0_pay6 (F := F)) := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  sl_unfold_words
  rw [View.canon_cons_unit_zero (S := S15x1000) hz2, View.readCov_unit_zero (S := S15x1000) _ hz2]
  simp only [View.readAt_eq_ld, harg2.read_unread, harg3.read_unread, harg7.read_unread, harg8.read_unread, harg9.read_unread,
    View.ld_unit_zero (S := S15x1000) hz2, View.ld_unit_zero (S := S1000x1000) hz2, View.ld_unit_zero (S := S1000x1) hz2]
  rfl

end Cert.KernelIdeal.Tables

end
-- ==== Proof.LibRowColOps.lean ====
/-
  More two-dimensional vector operations read at one index, on the extended reals.

  Companions of the row operations: a `[1, b]` row repeated down a first axis, the one-row slice of an
  `[n, b]` vector at a given row, a `[1, a, b]` block viewed as `[a, b]`, and a sum along the FIRST axis
  (a column's total). Each only moves coordinates, or is the finite sum over the axis summed away.
-/
import Idealize.ShloMosaic.PureOps.Ideal.Laws
import Idealize.ShloMosaic.Lib.ValueIdx
import Idealize.ShloMosaic.Lib.Pipeline.Value

noncomputable section

namespace Cert.RowColOps

open Idealize.ShloMosaic Idealize.ShloMosaic.ValueIdx

section Layout

variable {α : Type} {a b n : Nat}

/-- A `[1, b]` row repeated along a first axis reads, at (i, j), the row at (0, j). -/
theorem rowSpread_apply (x : (⟨2, ![1, b]⟩ : Shape).Idx → α) (h : (⟨2, ![1, b]⟩ : Shape).Broadcasts ⟨2, ![a, b]⟩)
    (i : Fin a) (j : Fin b) : broadcastTo ⟨2, ![a, b]⟩ x h (ix2 i j) = x (ix2 (0 : Fin 1) j) :=
  broadcastTo_apply x h _ _ (fun c => by
    match c with
    | ⟨0, _⟩ => show 0 = if (1 : Nat) = 1 then 0 else i.val; rw [if_pos rfl]
    | ⟨1, _⟩ =>
      show j.val = if b = 1 then 0 else j.val
      split
      · next h1 => have := j.isLt; omega
      · rfl)

/-- The one-row slice at row `c` of an `[n, b]` vector reads, at (0, j), the vector at (c, j). -/
theorem sliceRow_apply (x : (⟨2, ![n, b]⟩ : Shape).Idx → α) (c : Fin n) (off : Fin 2 → Nat)
    (hoff : off = ![c.val, 0]) (h : (⟨2, ![n, b]⟩ : Shape).Slices off ⟨2, ![1, b]⟩) (u : Fin 1) (j : Fin b) :
    extractStridedSlice ⟨2, ![1, b]⟩ off x h (ix2 u j) = x (ix2 c j) := by
  subst hoff
  refine extractStridedSlice_apply _ x h _ _ (fun d => ?_)
  have hu : u.val = 0 := by omega
  match d with
  | ⟨0, _⟩ => show c.val = c.val + u.val; omega
  | ⟨1, _⟩ => show j.val = 0 + j.val; omega

/-- A `[1, a, b]` block viewed as `[a, b]` reads, at (i, j), the block at (0, i, j). -/
theorem dropLead_apply (x : (⟨3, ![1, a, b]⟩ : Shape).Idx → α)
    (h : (⟨3, ![1, a, b]⟩ : Shape).ShapeCasts ⟨2, ![a, b]⟩) (i : Fin a) (j : Fin b) :
    shapeCast ⟨2, ![a, b]⟩ x h (ix2 i j) = x (ix3 (0 : Fin 1) i j) :=
  shapeCast_apply x h _ _ (by
    rw [Shape.rowMajor_val_three, Shape.rowMajor_val_two]
    show ((0 : Nat) * a + i.val) * b + j.val = i.val * b + j.val
    rw [Nat.zero_mul, Nat.zero_add])

end Layout

section Columns

variable {a b : Nat} {φ : FTy}

/-- The index over column `j` with first coordinate `k`. -/
theorem lift_col (h : (⟨2, ![a, b]⟩ : Shape).Reduces [0] ⟨1, ![b]⟩) (j : Fin b) (k : Fin a) :
    h.lift (ix1 j) k = ix2 k j :=
  funext fun c => Fin.ext (by
    show h.liftVal (ix1 j) k.val c = (ix2 k j c).val
    unfold Shape.Reduces.liftVal
    match c with
    | ⟨0, _⟩ => rfl
    | ⟨1, _⟩ => rfl)

/-- A sum along the first axis, at column `j`: the sum of that column. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (j : Fin b) :
    multiReduction .add [0] ⟨1, ![b]⟩ src acc h hφ hacc (ix1 j) = ∑ k : Fin a, src (ix2 k j) := by
  rw [Ideal.multiReduction_add_single]
  exact Finset.sum_congr rfl fun k _ => congrArg src (lift_col h j k)

end Columns

end Cert.RowColOps

end
-- ==== Proof.LibMaskOps.lean ====
/-
  Masked sums and one-hot indicators, read at an index on the extended reals.

  A choice made by an integer equality test is an if-then-else on the equality of the two words; a one-bit equality
  test, widened to 32 bits and converted to a float, is the number 1 or 0.  A length-b vector viewed as a [1, b] row
  reads the vector; the column sums of a masked [a, b] array (an entry kept where its mask bit is set and replaced by
  another array's entry elsewhere), viewed as such a row, read at (0, c) the sum down column c of the two-way choice.
  Words below 2^32 that agree as 32-bit words agree as numbers, so a sum over the classes of "x at the class whose
  number is the label, else zero" is x at the label's class: the other summands are zero and x + 0 = x, nothing has
  to be finite.
-/
import Idealize.ShloMosaic.PureOps.Ideal.Laws
import Idealize.ShloMosaic.Lib.ValueIdx
import Idealize.ShloMosaic.Lib.Pipeline.Value
import proofs.«108759_j47012712022077_2_alg».proof.Proof.LibRowColOps

noncomputable section

open scoped BigOperators

namespace Cert.MaskOps

open Idealize.ShloMosaic Idealize.ShloMosaic.ValueIdx

/-- An integer equality test answers the one-bit word 1 exactly when the words are equal. -/
theorem cmpi_eq_one_iff {w : Nat} (x y : BitVec w) : IntOp.cmpi .eq x y = 1#1 ↔ x = y := by
  unfold IntOp.cmpi
  by_cases h : x = y
  · subst h; simp
  · have hb : (x == y) = false := by simpa using h
    simp only [hb, h, iff_false]
    decide

/-- A choice made by an integer equality test is an if-then-else on the equality. -/
theorem select_cmpi_eq {α : Type} {w : Nat} (x y : BitVec w) (p q : α) :
    Scalar.select (IntOp.cmpi .eq x y) p q = if x = y then p else q := by
  unfold Scalar.select
  have e : IntOp.cmpi .eq x y = 1 ↔ x = y := cmpi_eq_one_iff x y
  by_cases h : x = y
  · rw [if_pos (e.mpr h), if_pos h]
  · rw [if_neg (fun c => h (e.mp c)), if_neg h]

/-- A one-bit word is 0 or 1. -/
theorem bit_cases (b : BitVec 1) : b = 0#1 ∨ b = 1#1 := by
  rcases b with ⟨⟨v, hv⟩⟩
  have : v = 0 ∨ v = 1 := by omega
  rcases this with rfl | rfl
  · exact Or.inl rfl
  · exact Or.inr rfl

/-- A one-bit equality test, widened to 32 bits and converted signed to a float, is 1 or 0. -/
theorem ind_cmpi_eq {w : Nat} (x y : BitVec w) :
    FloatOps.sitofp (F := Ideal) .f32 ((IntOp.cmpi .eq x y).setWidth 32) = if x = y then (1 : EReal) else 0 := by
  show (((((IntOp.cmpi .eq x y).setWidth 32).toInt : ℤ) : ℝ) : EReal) = _
  by_cases h : x = y
  · rw [(cmpi_eq_one_iff x y).mpr h, if_pos h, show ((1#1 : BitVec 1).setWidth 32).toInt = 1 from by decide]
    norm_num
  · have h0 : IntOp.cmpi .eq x y = 0#1 := (bit_cases _).resolve_right fun e => h ((cmpi_eq_one_iff x y).mp e)
    rw [h0, if_neg h, show ((0#1 : BitVec 1).setWidth 32).toInt = 0 from by decide]
    norm_num

/-- A length-b vector viewed as a [1, b] row reads, at (0, j), the vector at j. -/
theorem rowView_apply {α : Type} {b : Nat} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_one, Shape.rowMajor_val_two]
    show j.val = u.val * b + j.val
    rw [hu, Nat.zero_mul, Nat.zero_add])

/-- The column sums of a masked tile, viewed as a row: at (0, c) the sum down column c of the two-way choice. -/
theorem maskedColSum_apply {a b : Nat} (M : IVec ⟨2, ![a, b]⟩ 1) (A B : FVec Ideal ⟨2, ![a, b]⟩ .f32)
    (acc : BitVec 32) (h : (⟨2, ![a, b]⟩ : Shape).Reduces [0] ⟨1, ![b]⟩) (hφ : FKind.Formats .f32)
    (hacc : acc = FKind.add.neutral .f32 hφ) (hs : (⟨1, ![b]⟩ : Shape).ShapeCasts ⟨2, ![1, b]⟩) (u : Fin 1) (c : Fin b) :
    shapeCast ⟨2, ![1, b]⟩ (multiReduction .add [0] ⟨1, ![b]⟩ (select M A B) acc h hφ hacc) hs (ix2 u c)
      = ∑ r : Fin a, Scalar.select (M (ix2 r c)) (A (ix2 r c)) (B (ix2 r c)) := by
  rw [rowView_apply, Cert.RowColOps.colSum_apply]
  rfl

/-- Words below 2^32 that are equal as 32-bit words are equal. -/
theorem ofNat32_inj {a b : Nat} (ha : a < 4294967296) (hb : b < 4294967296) (h : BitVec.ofNat 32 a = BitVec.ofNat 32 b) :
    a = b := by
  have := congrArg BitVec.toNat h
  simp only [BitVec.toNat_ofNat] at this
  omega

/-- Summing over the classes "x at the class whose number is the label, else zero" gives x at the label's class. -/
theorem sum_pick {m : Nat} (hm : m ≤ 4294967296) (l : BitVec 32) (f : Fin m → EReal) (c : Fin m)
    (hl : l = BitVec.ofNat 32 c.val) :
    ∑ k : Fin m, (if l = BitVec.ofNat 32 k.val then f k else 0) = f c := by
  rw [Finset.sum_eq_single c]
  · rw [if_pos hl]
  · intro k _ hk
    rw [if_neg]
    intro hk'
    exact hk (Fin.ext (ofNat32_inj (lt_of_lt_of_le k.isLt hm) (lt_of_lt_of_le c.isLt hm) (hk'.symm.trans hl)))
  · intro hc; exact absurd (Finset.mem_univ c) hc

end Cert.MaskOps

end
-- ==== Proof.LibStackRows.lean ====
/-
  Fifteen rows stacked into one array, read at an index.

  Stacking fifteen [1, m] rows along the first axis gives a [15, m] array whose entry (k, c) is row k's entry (0, c):
  the first k rows occupy the first k positions of the stacked axis, one each.
-/
import Idealize.ShloMosaic.Lib.ValueIdx
import Idealize.ShloMosaic.Lib.Pipeline.Value

noncomputable section

namespace Cert.StackRows

open Idealize.ShloMosaic Idealize.ShloMosaic.ValueIdx

/-- Fifteen [1, m] rows, as the list a stacking takes. -/
abbrev rows15 {α : Type} {m : Nat} (v : Fin 15 → ((⟨2, ![1, m]⟩ : Shape).Idx → α)) : List ((s : Shape) × (s.Idx → α)) :=
  [⟨⟨2, ![1, m]⟩, v 0⟩, ⟨⟨2, ![1, m]⟩, v 1⟩, ⟨⟨2, ![1, m]⟩, v 2⟩, ⟨⟨2, ![1, m]⟩, v 3⟩, ⟨⟨2, ![1, m]⟩, v 4⟩,
   ⟨⟨2, ![1, m]⟩, v 5⟩, ⟨⟨2, ![1, m]⟩, v 6⟩, ⟨⟨2, ![1, m]⟩, v 7⟩, ⟨⟨2, ![1, m]⟩, v 8⟩, ⟨⟨2, ![1, m]⟩, v 9⟩,
   ⟨⟨2, ![1, m]⟩, v 10⟩, ⟨⟨2, ![1, m]⟩, v 11⟩, ⟨⟨2, ![1, m]⟩, v 12⟩, ⟨⟨2, ![1, m]⟩, v 13⟩, ⟨⟨2, ![1, m]⟩, v 14⟩]

set_option maxHeartbeats 4000000 in
/-- Fifteen [1, m] rows stacked along the first axis: at (k, c) the stack reads row k at (0, c). -/
theorem stack15_apply {α : Type} {m : Nat} (v : Fin 15 → ((⟨2, ![1, m]⟩ : Shape).Idx → α))
    (h : Shape.Concatenates ((rows15 v).map (·.1)) ⟨2, ![15, m]⟩ 0) (k : Fin 15) (c : Fin m) :
    concatenate ⟨2, ![15, m]⟩ 0 (rows15 v) h (ix2 k c) = v k (ix2 (0 : Fin 1) c) := by
  have hother : ∀ b : Fin 2, b.cast rfl ≠ (0 : Fin 2) → ((ix2 (0 : Fin 1) c : (⟨2, ![1, m]⟩ : Shape).Idx) b).val
      = ((ix2 k c : (⟨2, ![15, m]⟩ : Shape).Idx) (b.cast rfl)).val := fun b hb => by
    match b with
    | ⟨0, _⟩ => exact absurd rfl hb
    | ⟨1, _⟩ => rfl
  fin_cases k
  · exact concatenate_apply_piece (t := ⟨2, ![15, m]⟩) 0 (rows15 v) h _ 0 (by show (0 : ℕ) < 15; omega) ⟨2, ![1, m]⟩ (v 0) rfl rfl 0 rfl (ix2 (0 : Fin 1) c) hother rfl
  · exact concatenate_apply_piece (t := ⟨2, ![15, m]⟩) 0 (rows15 v) h _ 1 (by show (1 : ℕ) < 15; omega) ⟨2, ![1, m]⟩ (v 1) rfl rfl 1 rfl (ix2 (0 : Fin 1) c) hother rfl
  · exact concatenate_apply_piece (t := ⟨2, ![15, m]⟩) 0 (rows15 v) h _ 2 (by show (2 : ℕ) < 15; omega) ⟨2, ![1, m]⟩ (v 2) rfl rfl 2 rfl (ix2 (0 : Fin 1) c) hother rfl
  · exact concatenate_apply_piece (t := ⟨2, ![15, m]⟩) 0 (rows15 v) h _ 3 (by show (3 : ℕ) < 15; omega) ⟨2, ![1, m]⟩ (v 3) rfl rfl 3 rfl (ix2 (0 : Fin 1) c) hother rfl
  · exact concatenate_apply_piece (t := ⟨2, ![15, m]⟩) 0 (rows15 v) h _ 4 (by show (4 : ℕ) < 15; omega) ⟨2, ![1, m]⟩ (v 4) rfl rfl 4 rfl (ix2 (0 : Fin 1) c) hother rfl
  · exact concatenate_apply_piece (t := ⟨2, ![15, m]⟩) 0 (rows15 v) h _ 5 (by show (5 : ℕ) < 15; omega) ⟨2, ![1, m]⟩ (v 5) rfl rfl 5 rfl (ix2 (0 : Fin 1) c) hother rfl
  · exact concatenate_apply_piece (t := ⟨2, ![15, m]⟩) 0 (rows15 v) h _ 6 (by show (6 : ℕ) < 15; omega) ⟨2, ![1, m]⟩ (v 6) rfl rfl 6 rfl (ix2 (0 : Fin 1) c) hother rfl
  · exact concatenate_apply_piece (t := ⟨2, ![15, m]⟩) 0 (rows15 v) h _ 7 (by show (7 : ℕ) < 15; omega) ⟨2, ![1, m]⟩ (v 7) rfl rfl 7 rfl (ix2 (0 : Fin 1) c) hother rfl
  · exact concatenate_apply_piece (t := ⟨2, ![15, m]⟩) 0 (rows15 v) h _ 8 (by show (8 : ℕ) < 15; omega) ⟨2, ![1, m]⟩ (v 8) rfl rfl 8 rfl (ix2 (0 : Fin 1) c) hother rfl
  · exact concatenate_apply_piece (t := ⟨2, ![15, m]⟩) 0 (rows15 v) h _ 9 (by show (9 : ℕ) < 15; omega) ⟨2, ![1, m]⟩ (v 9) rfl rfl 9 rfl (ix2 (0 : Fin 1) c) hother rfl
  · exact concatenate_apply_piece (t := ⟨2, ![15, m]⟩) 0 (rows15 v) h _ 10 (by show (10 : ℕ) < 15; omega) ⟨2, ![1, m]⟩ (v 10) rfl rfl 10 rfl (ix2 (0 : Fin 1) c) hother rfl
  · exact concatenate_apply_piece (t := ⟨2, ![15, m]⟩) 0 (rows15 v) h _ 11 (by show (11 : ℕ) < 15; omega) ⟨2, ![1, m]⟩ (v 11) rfl rfl 11 rfl (ix2 (0 : Fin 1) c) hother rfl
  · exact concatenate_apply_piece (t := ⟨2, ![15, m]⟩) 0 (rows15 v) h _ 12 (by show (12 : ℕ) < 15; omega) ⟨2, ![1, m]⟩ (v 12) rfl rfl 12 rfl (ix2 (0 : Fin 1) c) hother rfl
  · exact concatenate_apply_piece (t := ⟨2, ![15, m]⟩) 0 (rows15 v) h _ 13 (by show (13 : ℕ) < 15; omega) ⟨2, ![1, m]⟩ (v 13) rfl rfl 13 rfl (ix2 (0 : Fin 1) c) hother rfl
  · exact concatenate_apply_piece (t := ⟨2, ![15, m]⟩) 0 (rows15 v) h _ 14 (by show (14 : ℕ) < 15; omega) ⟨2, ![1, m]⟩ (v 14) rfl rfl 14 rfl (ix2 (0 : Fin 1) c) hother rfl

end Cert.StackRows

end
-- ==== Proof.TileValue.lean ====
/-
  One tile's contribution to the counts and to the confidence sums, at an index, on the extended reals.

  The entry (r, c) of a tile has the bin word binOf of its value.  For a bin k the kernel sums, down every column c,
  "one where the entry's bin word is k, zero elsewhere" for the counts and "the entry where its bin word is k, zero
  elsewhere" for the confidence sums, and stacks the fifteen rows.  So after a tile the counts table at (k, c) is its
  previous value plus the number of rows r of the tile with binOf (x (r, c)) = k (each counting the float one), and
  the confidence-sum table its previous value plus the sum of those entries.
-/
import proofs.«108759_j47012712022077_2_alg».proof.Proof.Tables
import proofs.«108759_j47012712022077_2_alg».proof.Proof.LibMaskOps
import proofs.«108759_j47012712022077_2_alg».proof.Proof.LibStackRows
import proofs.«108759_j47012712022077_2_alg».proof.Proof.BinSpec

noncomputable section

open scoped BigOperators

open Idealize.ShloMosaic Idealize.ShloMosaic.ValueIdx

namespace Cert.KernelIdeal.Tables

open Cert.KernelIdeal Cert.KernelIdeal.Gen Cert.Hist Cert.MaskOps Cert.StackRows

/-- The bin word the kernel computes for a tile entry is the specification's. -/
theorem bins_apply (x0 : Vec Ideal S1000x1000 .f32) (j : S1000x1000.Idx) : k0_pay9 (F := Ideal) x0 j = binOf (x0 j) := rfl

/-- One bin's row of the counts: at column c, the number of rows whose bin word is k, each counting `one`. -/
theorem cntRow_apply (bins : IVec S1000x1000 32) (k : BitVec 32) (one zero : EReal) (hz : zero = 0) (c : Fin 1000) :
    shapeCast S1x1000 (multiReduction (F := Ideal) .add [0] S1000
        (select (cmpi .eq bins (broadcast S1000x1000 k)) (broadcast S1000x1000 one) (broadcast S1000x1000 zero))
        0x00000000#32 reduces_S1000x1000_S1000_2 (.inl rfl) rfl) shapeCasts_S1000_S1x1000 (ix2 (0 : Fin 1) c)
      = ∑ r : Fin 1000, if bins (ix2 r c) = k then one else 0 := by
  refine (maskedColSum_apply _ _ _ 0x00000000#32 reduces_S1000x1000_S1000_2 (.inl rfl) rfl shapeCasts_S1000_S1x1000 0 c).trans ?_
  refine Finset.sum_congr rfl fun r _ => ?_
  show Scalar.select (IntOp.cmpi .eq (bins (ix2 r c)) k) one zero = _
  rw [select_cmpi_eq, hz]

/-- One bin's row of the confidence sums: at column c, the sum of the entries whose bin word is k. -/
theorem confRow_apply (bins : IVec S1000x1000 32) (k : BitVec 32) (x0 : Vec Ideal S1000x1000 .f32) (zero : EReal)
    (hz : zero = 0) (c : Fin 1000) :
    shapeCast S1x1000 (multiReduction (F := Ideal) .add [0] S1000
        (select (cmpi .eq bins (broadcast S1000x1000 k)) x0 (broadcast S1000x1000 zero))
        0x00000000#32 reduces_S1000x1000_S1000_2 (.inl rfl) rfl) shapeCasts_S1000_S1x1000 (ix2 (0 : Fin 1) c)
      = ∑ r : Fin 1000, if bins (ix2 r c) = k then x0 (ix2 r c) else 0 := by
  refine (maskedColSum_apply _ _ _ 0x00000000#32 reduces_S1000x1000_S1000_2 (.inl rfl) rfl shapeCasts_S1000_S1x1000 0 c).trans ?_
  refine Finset.sum_congr rfl fun r _ => ?_
  show Scalar.select (IntOp.cmpi .eq (bins (ix2 r c)) k) (x0 (ix2 r c)) zero = _
  rw [select_cmpi_eq, hz]

/-- The fifteen count rows of a tile, bin by bin. -/
def cntRows (x0 : Vec Ideal S1000x1000 .f32) : Fin 15 → FVec Ideal S1x1000 .f32 :=
  ![k0_pay13 (F := Ideal) (k0_pay9 x0),
    k0_pay16 (F := Ideal) (k0_pay9 x0),
    k0_pay19 (F := Ideal) (k0_pay9 x0),
    k0_pay22 (F := Ideal) (k0_pay21 (k0_pay9 x0)) (Scalar.ofBits .f32 0x3F800000#32),
    k0_pay25 (F := Ideal) (k0_pay9 x0),
    k0_pay28 (F := Ideal) (k0_pay9 x0),
    k0_pay31 (F := Ideal) (k0_pay9 x0),
    k0_pay35 (F := Ideal) (k0_pay9 x0),
    k0_pay38 (F := Ideal) (k0_pay9 x0),
    k0_pay41 (F := Ideal) (k0_pay9 x0),
    k0_pay44 (F := Ideal) (k0_pay43 (k0_pay9 x0)) (Scalar.ofBits .f32 0x3F800000#32) (Scalar.ofBits .f32 0x00000000#32),
    k0_pay47 (F := Ideal) (k0_pay9 x0),
    k0_pay50 (F := Ideal) (k0_pay9 x0),
    k0_pay53 (F := Ideal) (k0_pay9 x0),
    shapeCast S1x1000 (multiReduction (F := Ideal) .add [0] S1000 (select (k0_pay55 (k0_pay9 x0)) (broadcast S1000x1000 (Scalar.ofBits (F := Ideal) .f32 0x3F800000#32)) (broadcast S1000x1000 (Scalar.ofBits (F := Ideal) .f32 0x00000000#32))) 0x00000000#32 reduces_S1000x1000_S1000_2 (.inl rfl) rfl) shapeCasts_S1000_S1x1000]

/-- The fifteen confidence-sum rows of a tile, bin by bin. -/
def confRows (x0 : Vec Ideal S1000x1000 .f32) : Fin 15 → FVec Ideal S1x1000 .f32 :=
  ![k0_pay14 x0 (k0_pay9 x0),
    k0_pay17 x0 (k0_pay9 x0),
    k0_pay20 x0 (k0_pay9 x0),
    k0_pay23 x0 (k0_pay21 (k0_pay9 x0)),
    k0_pay26 x0 (k0_pay9 x0),
    k0_pay29 x0 (k0_pay9 x0),
    k0_pay33 x0 (k0_pay30 (k0_pay9 x0)) (k0_pay32 (F := Ideal)),
    k0_pay36 x0 (k0_pay9 x0),
    k0_pay39 x0 (k0_pay9 x0),
    k0_pay42 x0 (k0_pay9 x0),
    k0_pay45 x0 (k0_pay43 (k0_pay9 x0)),
    k0_pay48 x0 (k0_pay9 x0),
    k0_pay51 x0 (k0_pay9 x0),
    shapeCast S1x1000 (multiReduction (F := Ideal) .add [0] S1000 (k0_pay54 x0 (k0_pay9 x0)) 0x00000000#32 reduces_S1000x1000_S1000_2 (.inl rfl) rfl) shapeCasts_S1000_S1x1000,
    shapeCast S1x1000 (multiReduction (F := Ideal) .add [0] S1000 (k0_pay56 x0 (k0_pay55 (k0_pay9 x0))) 0x00000000#32 reduces_S1000x1000_S1000_2 (.inl rfl) rfl) shapeCasts_S1000_S1x1000]

theorem cntRows_apply (x0 : Vec Ideal S1000x1000 .f32) (b : Fin 15) (c : Fin 1000) :
    cntRows x0 b (ix2 (0 : Fin 1) c) = ∑ r : Fin 1000, if binOf (x0 (ix2 r c)) = BitVec.ofNat 32 b.val then fone else 0 := by
  fin_cases b <;> exact cntRow_apply (k0_pay9 x0) _ _ _ Ideal.ofBits_zero_f32 c

theorem confRows_apply (x0 : Vec Ideal S1000x1000 .f32) (b : Fin 15) (c : Fin 1000) :
    confRows x0 b (ix2 (0 : Fin 1) c)
      = ∑ r : Fin 1000, if binOf (x0 (ix2 r c)) = BitVec.ofNat 32 b.val then x0 (ix2 r c) else 0 := by
  fin_cases b <;> exact confRow_apply (k0_pay9 x0) _ x0 _ Ideal.ofBits_zero_f32 c

/-- THE COUNTS after a tile, at (bin, class). -/
theorem updCnt_apply (x0 : Vec Ideal S1000x1000 .f32) (acc : Vec Ideal S15x1000 .f32) (b : Fin 15) (c : Fin 1000) :
    updCnt (F := Ideal) x0 acc (ix2 b c)
      = acc (ix2 b c) + ∑ r : Fin 1000, if binOf (x0 (ix2 r c)) = BitVec.ofNat 32 b.val then fone else 0 := by
  rw [← cntRows_apply x0 b c, ← stack15_apply (cntRows x0) concatenates_S1x1000_S1x1000_S1x1000_S1x1000_S1x1000_S1x1000_S1x1000_S1x1000_S1x1000_S1x1000_S1x1000_S1x1000_S1x1000_S1x1000_S1x1000_S15x1000_d0 b c]
  unfold updCnt k0_pay57
  rw [shapeCast_self]
  rfl

/-- THE CONFIDENCE SUMS after a tile, at (bin, class). -/
theorem updConf_apply (x0 : Vec Ideal S1000x1000 .f32) (acc : Vec Ideal S15x1000 .f32) (b : Fin 15) (c : Fin 1000) :
    updConf (F := Ideal) x0 acc (ix2 b c)
      = acc (ix2 b c) + ∑ r : Fin 1000, if binOf (x0 (ix2 r c)) = BitVec.ofNat 32 b.val then x0 (ix2 r c) else 0 := by
  rw [← confRows_apply x0 b c, ← stack15_apply (confRows x0) concatenates_S1x1000_S1x1000_S1x1000_S1x1000_S1x1000_S1x1000_S1x1000_S1x1000_S1x1000_S1x1000_S1x1000_S1x1000_S1x1000_S1x1000_S1x1000_S15x1000_d0 b c]
  unfold updConf k0_pay58
  rw [shapeCast_self]
  rfl

end Cert.KernelIdeal.Tables

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.TileCorr.lean ====
/-
  One tile's contribution to the label counts, at an index, on the extended reals.

  For a tile of 1000 rows the kernel forms two one-hot arrays.  Row r of the first says which class the row is
  labelled with: 1 at the class whose number is the label, 0 elsewhere.  Row r of the second says which bin the row's
  own-label confidence falls into, where that confidence is taken as the sum along the row of "the entry at the
  labelled class, zero elsewhere".  The contribution is the matrix product of the transposed second array with the
  first: at (bin b, class c) the sum over the rows r of [the own-label bin of r is b] · [r is labelled c].  A row that
  is not labelled c contributes a product with zero; for a row labelled c the own-label confidence is the entry
  (r, c) itself, the other summands being zero, so the row contributes one exactly when the bin of the entry (r, c)
  is b.  Sums and products by 0 and 1 of extended reals behave as usual, so nothing has to be finite.
-/
import proofs.«108759_j47012712022077_2_alg».proof.Proof.Tables
import proofs.«108759_j47012712022077_2_alg».proof.Proof.LibMaskOps
import proofs.«108759_j47012712022077_2_alg».proof.Proof.BinSpec
import proofs.«108759_j47012712022077_2_alg».proof.Proof.LibRowOps
import proofs.«108759_j47012712022077_2_alg».proof.Proof.LibRowColOps

noncomputable section

open scoped BigOperators

open Idealize.ShloMosaic Idealize.ShloMosaic.ValueIdx

namespace Cert.KernelIdeal.Tables

open Cert.KernelIdeal Cert.KernelIdeal.Gen Cert.Hist Cert.MaskOps

/-! ## The label one-hot array -/

/-- The one-bit word "row r is labelled k": the row's label compared with the class number. -/
theorem labelHit_apply (x1 : Vec Ideal S1000x1 .i32) (r k : Fin 1000) :
    k0_pay7 (F := Ideal) x1 (ix2 r k) = IntOp.cmpi .eq (x1 (ix2 r (0 : Fin 1))) (BitVec.ofNat 32 k.val) := by
  unfold k0_pay7
  show IntOp.cmpi .eq
      (broadcastTo S1000x1000 (shapeCast S1000x1 x1 shapeCasts_S1000x1_S1000x1) broadcasts_S1000x1_S1000x1000 (ix2 r k))
      (broadcastTo S1000x1000 (iota .tc S1x1000 32 [1] iota_S1x1000_d1_w32) broadcasts_S1x1000_S1000x1000 (ix2 r k)) = _
  have e1 : broadcastTo S1000x1000 (shapeCast S1000x1 x1 shapeCasts_S1000x1_S1000x1) broadcasts_S1000x1_S1000x1000 (ix2 r k)
      = x1 (ix2 r (0 : Fin 1)) :=
    (Cert.RowOps.spread_apply _ _ r k).trans (congrFun (shapeCast_self x1 _) _)
  have e2 : broadcastTo S1000x1000 (iota .tc S1x1000 32 [1] iota_S1x1000_d1_w32) broadcasts_S1x1000_S1000x1000 (ix2 r k)
      = BitVec.ofNat 32 k.val :=
    (Cert.RowColOps.rowSpread_apply _ _ r k).trans (iota_single_apply .tc S1x1000 32 1 _ (ix2 (0 : Fin 1) k))
  rw [e1, e2]

/-- The label one-hot array at (r, c): one when row r is labelled c, zero otherwise. -/
theorem labelInd_apply (x1 : Vec Ideal S1000x1 .i32) (r c : Fin 1000) :
    k0_pay8 (F := Ideal) x1 (ix2 r c) = if x1 (ix2 r (0 : Fin 1)) = BitVec.ofNat 32 c.val then (1 : EReal) else 0 := by
  unfold k0_pay8
  show FloatOps.sitofp (F := Ideal) .f32 ((k0_pay7 (F := Ideal) x1 (ix2 r c)).setWidth 32) = _
  rw [labelHit_apply, ind_cmpi_eq]

/-! ## The own-label bin one-hot array -/

/-- A row's confidence for its own label, as a [1000, 1] column: the row sum of "the entry at the labelled class,
    zero elsewhere". -/
def ownConf (x0 : Vec Ideal S1000x1000 .f32) (x1 : Vec Ideal S1000x1 .i32) : FVec Ideal S1000x1 .f32 :=
  shapeCast S1000x1
    (multiReduction (F := Ideal) .add [1] S1000
      (select (k0_pay7 (F := Ideal) x1) x0 (broadcast S1000x1000 (Scalar.ofBits (F := Ideal) .f32 0x00000000#32)))
      0x00000000#32 reduces_S1000x1000_S1000 (.inl rfl) rfl)
    shapeCasts_S1000_S1000x1

/-- The bin words of a [1000, 1] column of confidences. -/
def colBins (p : FVec Ideal S1000x1 .f32) : IVec S1000x1 32 :=
  minsi (broadcast S1000x1 14#32) (maxsi (broadcast S1000x1 0#32)
    (subi (fptosi 32 (ceil (mulf p (broadcast S1000x1 (Scalar.ofBits (F := Ideal) .f32 0x41700000#32)))))
      (broadcast S1000x1 1#32)))

/-- The kernel's widened test "the own-label bin of row r is b", in these words. -/
theorem pay10_eq (x0 : Vec Ideal S1000x1000 .f32) (x1 : Vec Ideal S1000x1 .i32) :
    k0_pay10 (F := Ideal) x0 x1
      = extui 32 (cmpi .eq (broadcastTo S1000x15 (colBins (ownConf x0 x1)) broadcasts_S1000x1_S1000x15)
          (iota .tc S1000x15 32 [1] iota_S1000x15_d1_w32)) natLt_1_32 := rfl

theorem colBins_apply (p : FVec Ideal S1000x1 .f32) (j : S1000x1.Idx) : colBins p j = binOf (p j) := rfl

/-- A row's own-label confidence: the sum over the classes of the entry at the labelled class, zero elsewhere. -/
theorem ownConf_apply (x0 : Vec Ideal S1000x1000 .f32) (x1 : Vec Ideal S1000x1 .i32) (r : Fin 1000) :
    ownConf x0 x1 (ix2 r (0 : Fin 1))
      = ∑ k : Fin 1000, if x1 (ix2 r (0 : Fin 1)) = BitVec.ofNat 32 k.val then x0 (ix2 r k) else 0 := by
  unfold ownConf
  refine (Cert.RowOps.column_apply _ _ r (0 : Fin 1)).trans ?_
  refine (Cert.RowOps.rowSum_apply _ _ _ _ _ r).trans ?_
  refine Finset.sum_congr rfl fun k _ => ?_
  show Scalar.select (k0_pay7 (F := Ideal) x1 (ix2 r k)) (x0 (ix2 r k)) (Scalar.ofBits (F := Ideal) .f32 0x00000000#32) = _
  rw [labelHit_apply, select_cmpi_eq]
  exact if_congr Iff.rfl rfl Ideal.ofBits_zero_f32

/-- The widened test at (r, b): the bin of row r's own-label confidence compared with b. -/
theorem rowBinHit_apply (x0 : Vec Ideal S1000x1000 .f32) (x1 : Vec Ideal S1000x1 .i32) (r : Fin 1000) (b : Fin 15) :
    k0_pay10 (F := Ideal) x0 x1 (ix2 r b)
      = (IntOp.cmpi .eq
          (binOf (∑ k : Fin 1000, if x1 (ix2 r (0 : Fin 1)) = BitVec.ofNat 32 k.val then x0 (ix2 r k) else 0))
          (BitVec.ofNat 32 b.val)).setWidth 32 := by
  rw [pay10_eq]
  show (IntOp.cmpi .eq
      (broadcastTo S1000x15 (colBins (ownConf x0 x1)) broadcasts_S1000x1_S1000x15 (ix2 r b))
      (iota .tc S1000x15 32 [1] iota_S1000x15_d1_w32 (ix2 r b))).setWidth 32 = _
  have e1 : broadcastTo S1000x15 (colBins (ownConf x0 x1)) broadcasts_S1000x1_S1000x15 (ix2 r b)
      = binOf (∑ k : Fin 1000, if x1 (ix2 r (0 : Fin 1)) = BitVec.ofNat 32 k.val then x0 (ix2 r k) else 0) :=
    (Cert.RowOps.spread_apply _ _ r b).trans ((colBins_apply _ _).trans (congrArg binOf (ownConf_apply x0 x1 r)))
  have e2 : iota .tc S1000x15 32 [1] iota_S1000x15_d1_w32 (ix2 r b) = BitVec.ofNat 32 b.val :=
    iota_single_apply .tc S1000x15 32 1 _ (ix2 r b)
  rw [e1, e2]

/-! ## The product -/

/-- The kernel's product is a plain [15, 1000] × [1000, 1000] one. -/
theorem plainDot : Cert.RowOps.IsPlain dot_S15x1000_S1000x1000_S15x1000_1_0_0_1_n_n :=
  ⟨rfl, rfl, rfl, rfl, rfl, rfl⟩

/-- The product of the transposed, converted test array with a [1000, 1000] array, at (b, c): the sum over the rows. -/
theorem pay11_apply (v12 : FVec Ideal S1000x1000 .bf16) (v40 : IVec S1000x15 32) (b : Fin 15) (c : Fin 1000) :
    k0_pay11 (F := Ideal) v12 v40 (ix2 b c)
      = ∑ r : Fin 1000, FloatOps.sitofp (F := Ideal) .f32 (v40 (ix2 r b)) * v12 (ix2 r c) := by
  unfold k0_pay11
  refine (Cert.RowOps.matmul_zero_apply plainDot none _ _ b c).trans ?_
  refine Finset.sum_congr rfl fun r _ => ?_
  refine congrArg (· * v12 (ix2 r c)) ?_
  exact Cert.RowOps.swap_apply _ _ b r

/-! ## The label counts after a tile -/

/-- THE LABEL COUNTS after a tile, at (bin, class). -/
theorem updCorr_apply (x0 : Vec Ideal S1000x1000 .f32) (x1 : Vec Ideal S1000x1 .i32) (acc : Vec Ideal S15x1000 .f32)
    (b : Fin 15) (c : Fin 1000) :
    updCorr (F := Ideal) x0 x1 acc (ix2 b c)
      = acc (ix2 b c) + ∑ r : Fin 1000,
          if x1 (ix2 r (0 : Fin 1)) = BitVec.ofNat 32 c.val ∧ binOf (x0 (ix2 r c)) = BitVec.ofNat 32 b.val
          then (1 : EReal) else 0 := by
  unfold updCorr k0_pay59
  rw [shapeCast_self]
  show acc (ix2 b c) + k0_pay11 (F := Ideal) (k0_pay8 (F := Ideal) x1) (k0_pay10 (F := Ideal) x0 x1) (ix2 b c) = _
  rw [pay11_apply]
  refine congrArg (acc (ix2 b c) + ·) (Finset.sum_congr rfl fun r _ => ?_)
  rw [rowBinHit_apply, ind_cmpi_eq, labelInd_apply]
  by_cases hl : x1 (ix2 r (0 : Fin 1)) = BitVec.ofNat 32 c.val
  · rw [if_pos hl, mul_one, sum_pick (by decide) _ (fun k => x0 (ix2 r k)) c hl]
    exact if_congr ⟨fun h => ⟨hl, h⟩, fun h => h.2⟩ rfl rfl
  · rw [if_neg hl, mul_zero, if_neg (fun h => hl h.1)]

end Cert.KernelIdeal.Tables

end
-- ==== Proof.RunningSum.lean ====
/-
  A table that is cleared every 25 steps and otherwise added to.

  Let T n be what a running table holds after step n, and u n what step n contributes.  If a step whose number is a
  multiple of 25 leaves 0 + u n, and every other step adds its contribution to what the step before left, then after
  step n the table holds the contributions of the steps since the last multiple of 25, that one included: the sum over
  j ≤ n mod 25 of u (n − n mod 25 + j).  In particular after the last step of a run of 25 it holds the whole run.
-/
import Mathlib.Algebra.BigOperators.Intervals
import Mathlib.Data.EReal.Basic

open scoped BigOperators

namespace Cert.Hist

/-- The table after step n holds the contributions since the last multiple of 25. -/
theorem running_sum {M : Type*} [AddCommMonoid M] {N : ℕ} (T : (n : ℕ) → n < N → M) (u : ℕ → M)
    (hclear : ∀ n (h : n < N), n % 25 = 0 → T n h = 0 + u n)
    (hadd : ∀ n (h : n + 1 < N), (n + 1) % 25 ≠ 0 → T (n + 1) h = T n (Nat.lt_of_succ_lt h) + u (n + 1)) :
    ∀ n (h : n < N), T n h = ∑ j ∈ Finset.range (n % 25 + 1), u (n - n % 25 + j)
  | 0, h => by
    rw [hclear 0 h rfl]
    simp
  | n + 1, h => by
    by_cases hz : (n + 1) % 25 = 0
    · rw [hclear (n + 1) h hz, hz]
      simp
    · rw [hadd n h hz, running_sum T u hclear hadd n (Nat.lt_of_succ_lt h)]
      have h1 : (n + 1) % 25 = n % 25 + 1 := by omega
      have h2 : n + 1 - (n % 25 + 1) = n - n % 25 := by omega
      have h3 : n - n % 25 + (n % 25 + 1) = n + 1 := by omega
      rw [h1, h2, Finset.sum_range_succ _ (n % 25 + 1), h3]

/-- After the last step of a run of 25 the table holds the whole run. -/
theorem running_sum_last {M : Type*} [AddCommMonoid M] {N : ℕ} (T : (n : ℕ) → n < N → M) (u : ℕ → M)
    (hclear : ∀ n (h : n < N), n % 25 = 0 → T n h = 0 + u n)
    (hadd : ∀ n (h : n + 1 < N), (n + 1) % 25 ≠ 0 → T (n + 1) h = T n (Nat.lt_of_succ_lt h) + u (n + 1))
    (p : ℕ) (h : 25 * p + 24 < N) : T (25 * p + 24) h = ∑ j ∈ Finset.range 25, u (25 * p + j) := by
  rw [running_sum T u hclear hadd (25 * p + 24) h]
  have h1 : (25 * p + 24) % 25 = 24 := by omega
  have h2 : 25 * p + 24 - 24 = 25 * p := by omega
  rw [h1, h2]

end Cert.Hist
-- ==== Proof.Accum.lean ====
/-
  The three running tables, grid point by grid point.

  The grid has 50 points; point t works on rows 1000·t … 1000·t + 999 of the confidences (its tile) and of the labels.
  Points 0 … 24 belong to the first core's half, 25 … 49 to the second's.  At a point whose number is a multiple of 25
  the tables are cleared before the tile's contribution is added; at every other point the contribution is added to
  what the point before left; at a point ≡ 24 (mod 25) the tables are also copied out as the core's block of the three
  results.  Hence after point n each table holds the contributions of the points of its half up to n, and the block
  copied out at point 25·p + 24 holds the whole half p.
-/
import proofs.«108759_j47012712022077_2_alg».proof.Proof.TileValue
import proofs.«108759_j47012712022077_2_alg».proof.Proof.TileCorr
import proofs.«108759_j47012712022077_2_alg».proof.Proof.RunningSum

noncomputable section

open scoped BigOperators

open Idealize.ShloMosaic Idealize.ShloMosaic.TcCoe Idealize.SL.Sem Idealize.ShloMosaic.ValueIdx

namespace Cert.KernelIdeal.Tables

open Cert.KernelIdeal Cert.KernelIdeal.Gen Cert.Hist

/-! ## At any float instance: what each kind of point leaves -/

section Steps

variable {F : FTy → Type} [FloatOps F]
variable (m : (ℓ : Loc nD τ sig) → Buf (Elt F) ℓ)

/-- Point t's tile of confidences and its column of labels, as the body loads them. -/
abbrev tile (c : Dev nD) (t : Fin cfg0.N) : Vec F S1000x1000 .f32 := iblk m c 0 t
abbrev lbls (c : Dev nD) (t : Fin cfg0.N) : Vec F S1000x1 .i32 := iblk m c 1 t

/-- The three running tables after point n. -/
def tbls (c : Dev nD) (n : ℕ) (h : n < cfg0.N) : Vec F S15x1000 .f32 × Vec F S15x1000 .f32 × Vec F S15x1000 .f32 :=
  (outsAt0 m c n h).2.2.2

/-- A half's first point: the cleared tables plus the tile's contribution. -/
theorem tbls_first (c : Dev nD) (t : Fin cfg0.N) (h0 : t.val % 25 = 0) :
    tbls m c t.val t.isLt
      = (updCnt (tile m c t) (k0_pay4 (F := F)), updConf (tile m c t) (k0_pay5 (F := F)),
          updCorr (tile m c t) (lbls m c t) (k0_pay6 (F := F))) := by
  have h1 : ¬t.val % 25 = 24 := by omega
  have e0 : (outsAt0 m c t.val t.isLt).2.2.2.1 = updCnt (iblk m c 0 t) (k0_pay4 (F := F)) := by
    rw [outsAt0_A m c t h0 h1]
    dsimp only
    exact sout0_A_0_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)
  have e1 : (outsAt0 m c t.val t.isLt).2.2.2.2.1 = updConf (iblk m c 0 t) (k0_pay5 (F := F)) := by
    rw [outsAt0_A m c t h0 h1]
    dsimp only
    exact sout0_A_1_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)
  have e2 : (outsAt0 m c t.val t.isLt).2.2.2.2.2 = updCorr (iblk m c 0 t) (iblk m c 1 t) (k0_pay6 (F := F)) := by
    rw [outsAt0_A m c t h0 h1]
    dsimp only
    exact sout0_A_2_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)
  exact Prod.ext e0 (Prod.ext e1 e2)

/-- Any other point: the tables the point before left plus the tile's contribution. -/
theorem tbls_next (c : Dev nD) (t : Fin cfg0.N) (h0 : ¬t.val % 25 = 0) :
    tbls m c t.val t.isLt
      = (updCnt (tile m c t) (tbls m c (t.val - 1) (Nat.lt_of_le_of_lt (Nat.sub_le _ _) t.isLt)).1,
          updConf (tile m c t) (tbls m c (t.val - 1) (Nat.lt_of_le_of_lt (Nat.sub_le _ _) t.isLt)).2.1,
          updCorr (tile m c t) (lbls m c t) (tbls m c (t.val - 1) (Nat.lt_of_le_of_lt (Nat.sub_le _ _) t.isLt)).2.2) := by
  have e0 : (outsAt0 m c t.val t.isLt).2.2.2.1 = updCnt (iblk m c 0 t) (outsAt0 m c (t.val - 1) (Nat.lt_of_le_of_lt (Nat.sub_le _ _) t.isLt)).2.2.2.1 := by
    by_cases h1 : t.val % 25 = 24
    ·
      rw [outsAt0_C m c t h0 h1]
      dsimp only
      exact sout0_C_0_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    ·
      rw [outsAt0_B m c t h0 h1]
      dsimp only
      exact sout0_B_0_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  have e1 : (outsAt0 m c t.val t.isLt).2.2.2.2.1 = updConf (iblk m c 0 t) (outsAt0 m c (t.val - 1) (Nat.lt_of_le_of_lt (Nat.sub_le _ _) t.isLt)).2.2.2.2.1 := by
    by_cases h1 : t.val % 25 = 24
    ·
      rw [outsAt0_C m c t h0 h1]
      dsimp only
      exact sout0_C_1_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    ·
      rw [outsAt0_B m c t h0 h1]
      dsimp only
      exact sout0_B_1_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  have e2 : (outsAt0 m c t.val t.isLt).2.2.2.2.2 = updCorr (iblk m c 0 t) (iblk m c 1 t) (outsAt0 m c (t.val - 1) (Nat.lt_of_le_of_lt (Nat.sub_le _ _) t.isLt)).2.2.2.2.2 := by
    by_cases h1 : t.val % 25 = 24
    ·
      rw [outsAt0_C m c t h0 h1]
      dsimp only
      exact sout0_C_2_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    ·
      rw [outsAt0_B m c t h0 h1]
      dsimp only
      exact sout0_B_2_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
  exact Prod.ext e0 (Prod.ext e1 e2)

/-- A half's last point copies the three tables out, each viewed as a [1, 15, 1000] block. -/
theorem outs_last (c : Dev nD) (t : Fin cfg0.N) (h1 : t.val % 25 = 24) :
    (outsAt0 m c t.val t.isLt).1 = k0_pay1 (tbls m c t.val t.isLt).1
      ∧ (outsAt0 m c t.val t.isLt).2.1 = k0_pay2 (tbls m c t.val t.isLt).2.1
      ∧ (outsAt0 m c t.val t.isLt).2.2.1 = k0_pay3 (tbls m c t.val t.isLt).2.2 := by
  have h0 : ¬t.val % 25 = 0 := by omega
  unfold tbls
  rw [outsAt0_C m c t h0 h1]
  dsimp only
  refine ⟨?_, ?_, ?_⟩
  · exact (out0_C_2_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
      (congrArg k0_pay1 (sout0_C_0_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm)
  · exact (out0_C_3_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
      (congrArg k0_pay2 (sout0_C_1_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm)
  · exact (out0_C_4_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).trans
      (congrArg k0_pay3 (sout0_C_2_eq (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2).symm)

end Steps

/-! ## On the extended reals: the tables as sums over the points of a half -/

section Sums

variable (m : (ℓ : Loc nD τ sig) → Buf (Elt Ideal) ℓ)

/-- A cleared table holds zero everywhere. -/
theorem cleared_apply (j : S15x1000.Idx) :
    k0_pay4 (F := Ideal) j = 0 ∧ k0_pay5 (F := Ideal) j = 0 ∧ k0_pay6 (F := Ideal) j = 0 := by
  unfold k0_pay4 k0_pay5 k0_pay6
  simp only [shapeCast_self]
  exact ⟨Ideal.ofBits_zero_f32, Ideal.ofBits_zero_f32, Ideal.ofBits_zero_f32⟩

/-- What point n contributes to the counts, the confidence sums and the label counts at (bin b, class k). -/
def cntOf (c : Dev nD) (b : Fin 15) (k : Fin 1000) (n : ℕ) : EReal :=
  if h : n < cfg0.N then
    ∑ r : Fin 1000, if binOf (tile m c ⟨n, h⟩ (ix2 r k)) = BitVec.ofNat 32 b.val then fone else 0
  else 0

def confOf (c : Dev nD) (b : Fin 15) (k : Fin 1000) (n : ℕ) : EReal :=
  if h : n < cfg0.N then
    ∑ r : Fin 1000, if binOf (tile m c ⟨n, h⟩ (ix2 r k)) = BitVec.ofNat 32 b.val then tile m c ⟨n, h⟩ (ix2 r k) else 0
  else 0

def corrOf (c : Dev nD) (b : Fin 15) (k : Fin 1000) (n : ℕ) : EReal :=
  if h : n < cfg0.N then
    ∑ r : Fin 1000, if lbls m c ⟨n, h⟩ (ix2 r (0 : Fin 1)) = BitVec.ofNat 32 k.val
        ∧ binOf (tile m c ⟨n, h⟩ (ix2 r k)) = BitVec.ofNat 32 b.val then (1 : EReal) else 0
  else 0

/-- The counts table after the last point of half p: the contributions of the half's 25 points. -/
theorem cnt_half (c : Dev nD) (b : Fin 15) (k : Fin 1000) (p : ℕ) (h : 25 * p + 24 < cfg0.N) :
    (tbls m c (25 * p + 24) h).1 (ix2 b k) = ∑ j ∈ Finset.range 25, cntOf m c b k (25 * p + j) :=
  running_sum_last (fun n h => (tbls m c n h).1 (ix2 b k)) (cntOf m c b k)
    (fun n h hz => by
      show (tbls m c (⟨n, h⟩ : Fin cfg0.N).val (⟨n, h⟩ : Fin cfg0.N).isLt).1 (ix2 b k) = _
      rw [tbls_first m c ⟨n, h⟩ hz]
      show updCnt (F := Ideal) (tile m c ⟨n, h⟩) (k0_pay4 (F := Ideal)) (ix2 b k) = _
      rw [updCnt_apply, (cleared_apply _).1]
      unfold cntOf
      rw [dif_pos h])
    (fun n h hz => by
      show (tbls m c (⟨n + 1, h⟩ : Fin cfg0.N).val (⟨n + 1, h⟩ : Fin cfg0.N).isLt).1 (ix2 b k) = _
      rw [tbls_next m c ⟨n + 1, h⟩ hz]
      show updCnt (F := Ideal) (tile m c ⟨n + 1, h⟩) (tbls m c n _).1 (ix2 b k) = _
      rw [updCnt_apply]
      unfold cntOf
      rw [dif_pos h])
    p h

/-- The confidence-sum table after the last point of half p. -/
theorem conf_half (c : Dev nD) (b : Fin 15) (k : Fin 1000) (p : ℕ) (h : 25 * p + 24 < cfg0.N) :
    (tbls m c (25 * p + 24) h).2.1 (ix2 b k) = ∑ j ∈ Finset.range 25, confOf m c b k (25 * p + j) :=
  running_sum_last (fun n h => (tbls m c n h).2.1 (ix2 b k)) (confOf m c b k)
    (fun n h hz => by
      show (tbls m c (⟨n, h⟩ : Fin cfg0.N).val (⟨n, h⟩ : Fin cfg0.N).isLt).2.1 (ix2 b k) = _
      rw [tbls_first m c ⟨n, h⟩ hz]
      show updConf (F := Ideal) (tile m c ⟨n, h⟩) (k0_pay5 (F := Ideal)) (ix2 b k) = _
      rw [updConf_apply, (cleared_apply _).2.1]
      unfold confOf
      rw [dif_pos h])
    (fun n h hz => by
      show (tbls m c (⟨n + 1, h⟩ : Fin cfg0.N).val (⟨n + 1, h⟩ : Fin cfg0.N).isLt).2.1 (ix2 b k) = _
      rw [tbls_next m c ⟨n + 1, h⟩ hz]
      show updConf (F := Ideal) (tile m c ⟨n + 1, h⟩) (tbls m c n _).2.1 (ix2 b k) = _
      rw [updConf_apply]
      unfold confOf
      rw [dif_pos h])
    p h

/-- The label-count table after the last point of half p. -/
theorem corr_half (c : Dev nD) (b : Fin 15) (k : Fin 1000) (p : ℕ) (h : 25 * p + 24 < cfg0.N) :
    (tbls m c (25 * p + 24) h).2.2 (ix2 b k) = ∑ j ∈ Finset.range 25, corrOf m c b k (25 * p + j) :=
  running_sum_last (fun n h => (tbls m c n h).2.2 (ix2 b k)) (corrOf m c b k)
    (fun n h hz => by
      show (tbls m c (⟨n, h⟩ : Fin cfg0.N).val (⟨n, h⟩ : Fin cfg0.N).isLt).2.2 (ix2 b k) = _
      rw [tbls_first m c ⟨n, h⟩ hz]
      show updCorr (F := Ideal) (tile m c ⟨n, h⟩) (lbls m c ⟨n, h⟩) (k0_pay6 (F := Ideal)) (ix2 b k) = _
      rw [updCorr_apply, (cleared_apply _).2.2]
      unfold corrOf
      rw [dif_pos h])
    (fun n h hz => by
      show (tbls m c (⟨n + 1, h⟩ : Fin cfg0.N).val (⟨n + 1, h⟩ : Fin cfg0.N).isLt).2.2 (ix2 b k) = _
      rw [tbls_next m c ⟨n + 1, h⟩ hz]
      show updCorr (F := Ideal) (tile m c ⟨n + 1, h⟩) (lbls m c ⟨n + 1, h⟩) (tbls m c n _).2.2 (ix2 b k) = _
      rw [updCorr_apply]
      unfold corrOf
      rw [dif_pos h])
    p h

end Sums

end Cert.KernelIdeal.Tables

end
-- ==== Proof.Results.lean ====
/-
  From the blocks written back to the three result arrays, and the tiles as rows of the arguments.

  Each of the three results is a [2, 15, 1000] array; half p's last grid point (point 25·p + 24) writes back block
  (p, 0, 0) of it, a [1, 15, 1000] view of the half's table.  The two blocks tile the array, so after the run entry
  (p, b, k) of a result is the table's entry (b, k) after point 25·p + 24.  On the input side, point t's tile is rows
  1000·t … 1000·t + 999 of the confidences and its label column the same rows of the labels, which the host reshaped
  from a length-50000 vector to a [50000, 1] column before the region.
-/
import proofs.«108759_j47012712022077_2_alg».proof.Proof.Accum

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Tables

open Cert.KernelIdeal Cert.KernelIdeal.Gen Cert.Hist

variable {F : FTy → Type} [FloatOps F]
variable (m : (ℓ : Loc nD τ sig) → Buf (Elt F) ℓ)

/-- The tables after point n do not depend on how n is written. -/
theorem tbls_congr (c : Dev nD) {n n' : ℕ} (e : n = n') (h : n < cfg0.N) (h' : n' < cfg0.N) :
    tbls m c n h = tbls m c n' h' := by
  subst e; rfl

/-- The last point of half p is a point of the grid. -/
theorem half_lt (p : Fin 2) : 25 * p.val + 24 < cfg0.N := by
  have hN : cfg0.N = 50 := N_0
  have := p.isLt
  omega

/-- A [15, 1000] table viewed as a [1, 15, 1000] block reads, at (0, b, k), the table at (b, k). -/
theorem block_view_apply (v : S15x1000.Idx → Elt F .f32) (j : S1x15x1000.Idx) :
    shapeCast S1x15x1000 v shapeCasts_S15x1000_S1x15x1000 j = v (ix2 (j 1) (j 2)) :=
  shapeCast_apply v _ j _ (by
    have hj0 : (j 0).val < 1 := (j 0).isLt
    rw [Shape.rowMajor_val_two, Shape.rowMajor_val_three]
    show (j 1).val * 1000 + (j 2).val = ((j 0).val * 15 + (j 1).val) * 1000 + (j 2).val
    have h0 : (j 0).val = 0 := by omega
    rw [h0, Nat.zero_mul, Nat.zero_add])

/-- The printed index maps of the three outputs, decided over the grid: block (t / 25, 0, 0). -/
theorem out_idx_facts2 : ∀ t : Fin cfg0.N, win0_2.index t (0 : Fin 3) = t.val / 25 ∧ win0_2.index t (1 : Fin 3) = 0 ∧ win0_2.index t (2 : Fin 3) = 0 :=
  (by decide +kernel : ∀ t : Fin grid0.N, _)
theorem out_idx_facts3 : ∀ t : Fin cfg0.N, win0_3.index t (0 : Fin 3) = t.val / 25 ∧ win0_3.index t (1 : Fin 3) = 0 ∧ win0_3.index t (2 : Fin 3) = 0 :=
  (by decide +kernel : ∀ t : Fin grid0.N, _)
theorem out_idx_facts4 : ∀ t : Fin cfg0.N, win0_4.index t (0 : Fin 3) = t.val / 25 ∧ win0_4.index t (1 : Fin 3) = 0 ∧ win0_4.index t (2 : Fin 3) = 0 :=
  (by decide +kernel : ∀ t : Fin grid0.N, _)
/-- and of the two inputs: block (t, 0). -/
theorem in_idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-! ## The three result arrays -/

/-- The counts result array: entry (p, b, k) is the counts table at (b, k) after the last point of half p. -/
def resCnt (c : Dev nD) : S2x15x1000.Idx → Elt F .f32 :=
  fun i => (tbls m c (25 * (i 0).val + 24) (half_lt (i 0))).1 (ix2 (i 1) (i 2))

/-- What a half's last point writes back into window 2 is its block of that array. -/
theorem flushed2_eq (c : Dev nD) (t : Fin cfg0.N) (hf : (cfg0.win 2).flush t = true) :
    (dats m 0 c).flushed 2 t = ((cfg0.win 2).blk t).view.read (Elt F) (resCnt m c) := by
  have h24 : t.val % 25 = 24 := (flush0_2 t).mp hf
  obtain ⟨e0, e1, e2⟩ := out_idx_facts2 t
  show (cfg0.win 2).cut (grid0.coords t) ((dats m 0 c).after 2 t) = _
  rw [after0_2, (outs_last m c t h24).1]
  funext j
  show k0_pay1 (tbls m c t.val t.isLt).1 j = resCnt m c (((cfg0.win 2).blk t).view.emb j)
  have hj0 : (j 0).val < 1 := (j 0).isLt
  have hn : 25 * ((((cfg0.win 2).blk t).view.emb j) 0).val + 24 = t.val := by
    show 25 * (win0_2.index t (0 : Fin 3) * 1 + 1 * (j 0).val) + 24 = t.val
    omega
  have hbk : (ix2 ((((cfg0.win 2).blk t).view.emb j) 1) ((((cfg0.win 2).blk t).view.emb j) 2) : S15x1000.Idx) = ix2 (j 1) (j 2) := by
    funext a; apply Fin.ext
    match a with
    | ⟨0, _⟩ => show win0_2.index t (1 : Fin 3) * 15 + 1 * (j 1).val = (j 1).val; omega
    | ⟨1, _⟩ => show win0_2.index t (2 : Fin 3) * 1000 + 1 * (j 2).val = (j 2).val; omega
  unfold resCnt
  rw [hbk, tbls_congr m c hn _ t.isLt]
  exact block_view_apply _ j

/-- An index of the array is in point t's block iff each coordinate is in the block's range on its axis. -/
theorem mem_blk2 (t : Fin cfg0.N) (i : S2x15x1000.Idx) :
    i ∈ ((cfg0.win 2).blk t).view.set ↔ ∀ a : Fin 3, win0_2.index t a * S1x15x1000.size a ≤ (i a).val ∧ (i a).val < win0_2.index t a * S1x15x1000.size a + S1x15x1000.size a := by
  show i ∈ ((View.whole main_v1_0).slice (win0_2.rect t)).set ↔ _
  rw [View.set_slice_whole, Rect.mem_set_unit]
  exact Iff.rfl

/-- Every index of the array lies in the block some half's last point writes back. -/
theorem cover2 (i : S2x15x1000.Idx) :
    ∃ t : Fin cfg0.N, (cfg0.win 2).flush t = true ∧ i ∈ ((cfg0.win 2).blk t).view.set := by
  have hi0 : (i 0).val < 2 := (i 0).isLt
  have hi1 : (i 1).val < 15 := (i 1).isLt
  have hi2 : (i 2).val < 1000 := (i 2).isLt
  have hN : cfg0.N = 50 := N_0
  have hlt : 25 * (i 0).val + 24 < cfg0.N := by rw [hN]; omega
  refine ⟨⟨25 * (i 0).val + 24, hlt⟩, (flush0_2 _).mpr (by show (25 * (i 0).val + 24) % 25 = 24; omega), ?_⟩
  obtain ⟨e0, e1, e2⟩ := out_idx_facts2 ⟨25 * (i 0).val + 24, hlt⟩
  have e0' : win0_2.index ⟨25 * (i 0).val + 24, hlt⟩ (0 : Fin 3) = (i 0).val := by rw [e0]; show (25 * (i 0).val + 24) / 25 = _; omega
  rw [mem_blk2]
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 15 ≤ (i 1).val ∧ (i 1).val < win0_2.index _ (1 : Fin 3) * 15 + 15; omega
  | ⟨2, _⟩ => show win0_2.index _ (2 : Fin 3) * 1000 ≤ (i 2).val ∧ (i 2).val < win0_2.index _ (2 : Fin 3) * 1000 + 1000; omega

/-- So the counts result array ends holding it. -/
theorem final2 (c : Dev nD) : (dats m 0 c).arrAt 2 cfg0.N = resCnt m c :=
  (dats m 0 c).arrAt_eq_of_cover 2 (resCnt m c) (flushed2_eq m c) cover2

/-- The confidence-sum result array: entry (p, b, k) is the confidence-sum table at (b, k) after the last point of half p. -/
def resConf (c : Dev nD) : S2x15x1000.Idx → Elt F .f32 :=
  fun i => (tbls m c (25 * (i 0).val + 24) (half_lt (i 0))).2.1 (ix2 (i 1) (i 2))

/-- What a half's last point writes back into window 3 is its block of that array. -/
theorem flushed3_eq (c : Dev nD) (t : Fin cfg0.N) (hf : (cfg0.win 3).flush t = true) :
    (dats m 0 c).flushed 3 t = ((cfg0.win 3).blk t).view.read (Elt F) (resConf m c) := by
  have h24 : t.val % 25 = 24 := (flush0_3 t).mp hf
  obtain ⟨e0, e1, e2⟩ := out_idx_facts3 t
  show (cfg0.win 3).cut (grid0.coords t) ((dats m 0 c).after 3 t) = _
  rw [after0_3, (outs_last m c t h24).2.1]
  funext j
  show k0_pay2 (tbls m c t.val t.isLt).2.1 j = resConf m c (((cfg0.win 3).blk t).view.emb j)
  have hj0 : (j 0).val < 1 := (j 0).isLt
  have hn : 25 * ((((cfg0.win 3).blk t).view.emb j) 0).val + 24 = t.val := by
    show 25 * (win0_3.index t (0 : Fin 3) * 1 + 1 * (j 0).val) + 24 = t.val
    omega
  have hbk : (ix2 ((((cfg0.win 3).blk t).view.emb j) 1) ((((cfg0.win 3).blk t).view.emb j) 2) : S15x1000.Idx) = ix2 (j 1) (j 2) := by
    funext a; apply Fin.ext
    match a with
    | ⟨0, _⟩ => show win0_3.index t (1 : Fin 3) * 15 + 1 * (j 1).val = (j 1).val; omega
    | ⟨1, _⟩ => show win0_3.index t (2 : Fin 3) * 1000 + 1 * (j 2).val = (j 2).val; omega
  unfold resConf
  rw [hbk, tbls_congr m c hn _ t.isLt]
  exact block_view_apply _ j

/-- An index of the array is in point t's block iff each coordinate is in the block's range on its axis. -/
theorem mem_blk3 (t : Fin cfg0.N) (i : S2x15x1000.Idx) :
    i ∈ ((cfg0.win 3).blk t).view.set ↔ ∀ a : Fin 3, win0_3.index t a * S1x15x1000.size a ≤ (i a).val ∧ (i a).val < win0_3.index t a * S1x15x1000.size a + S1x15x1000.size a := by
  show i ∈ ((View.whole main_v1_1).slice (win0_3.rect t)).set ↔ _
  rw [View.set_slice_whole, Rect.mem_set_unit]
  exact Iff.rfl

/-- Every index of the array lies in the block some half's last point writes back. -/
theorem cover3 (i : S2x15x1000.Idx) :
    ∃ t : Fin cfg0.N, (cfg0.win 3).flush t = true ∧ i ∈ ((cfg0.win 3).blk t).view.set := by
  have hi0 : (i 0).val < 2 := (i 0).isLt
  have hi1 : (i 1).val < 15 := (i 1).isLt
  have hi2 : (i 2).val < 1000 := (i 2).isLt
  have hN : cfg0.N = 50 := N_0
  have hlt : 25 * (i 0).val + 24 < cfg0.N := by rw [hN]; omega
  refine ⟨⟨25 * (i 0).val + 24, hlt⟩, (flush0_3 _).mpr (by show (25 * (i 0).val + 24) % 25 = 24; omega), ?_⟩
  obtain ⟨e0, e1, e2⟩ := out_idx_facts3 ⟨25 * (i 0).val + 24, hlt⟩
  have e0' : win0_3.index ⟨25 * (i 0).val + 24, hlt⟩ (0 : Fin 3) = (i 0).val := by rw [e0]; show (25 * (i 0).val + 24) / 25 = _; omega
  rw [mem_blk3]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 15 ≤ (i 1).val ∧ (i 1).val < win0_3.index _ (1 : Fin 3) * 15 + 15; omega
  | ⟨2, _⟩ => show win0_3.index _ (2 : Fin 3) * 1000 ≤ (i 2).val ∧ (i 2).val < win0_3.index _ (2 : Fin 3) * 1000 + 1000; omega

/-- So the confidence-sum result array ends holding it. -/
theorem final3 (c : Dev nD) : (dats m 0 c).arrAt 3 cfg0.N = resConf m c :=
  (dats m 0 c).arrAt_eq_of_cover 3 (resConf m c) (flushed3_eq m c) cover3

/-- The label-count result array: entry (p, b, k) is the label-count table at (b, k) after the last point of half p. -/
def resCorr (c : Dev nD) : S2x15x1000.Idx → Elt F .f32 :=
  fun i => (tbls m c (25 * (i 0).val + 24) (half_lt (i 0))).2.2 (ix2 (i 1) (i 2))

/-- What a half's last point writes back into window 4 is its block of that array. -/
theorem flushed4_eq (c : Dev nD) (t : Fin cfg0.N) (hf : (cfg0.win 4).flush t = true) :
    (dats m 0 c).flushed 4 t = ((cfg0.win 4).blk t).view.read (Elt F) (resCorr m c) := by
  have h24 : t.val % 25 = 24 := (flush0_4 t).mp hf
  obtain ⟨e0, e1, e2⟩ := out_idx_facts4 t
  show (cfg0.win 4).cut (grid0.coords t) ((dats m 0 c).after 4 t) = _
  rw [after0_4, (outs_last m c t h24).2.2]
  funext j
  show k0_pay3 (tbls m c t.val t.isLt).2.2 j = resCorr m c (((cfg0.win 4).blk t).view.emb j)
  have hj0 : (j 0).val < 1 := (j 0).isLt
  have hn : 25 * ((((cfg0.win 4).blk t).view.emb j) 0).val + 24 = t.val := by
    show 25 * (win0_4.index t (0 : Fin 3) * 1 + 1 * (j 0).val) + 24 = t.val
    omega
  have hbk : (ix2 ((((cfg0.win 4).blk t).view.emb j) 1) ((((cfg0.win 4).blk t).view.emb j) 2) : S15x1000.Idx) = ix2 (j 1) (j 2) := by
    funext a; apply Fin.ext
    match a with
    | ⟨0, _⟩ => show win0_4.index t (1 : Fin 3) * 15 + 1 * (j 1).val = (j 1).val; omega
    | ⟨1, _⟩ => show win0_4.index t (2 : Fin 3) * 1000 + 1 * (j 2).val = (j 2).val; omega
  unfold resCorr
  rw [hbk, tbls_congr m c hn _ t.isLt]
  exact block_view_apply _ j

/-- An index of the array is in point t's block iff each coordinate is in the block's range on its axis. -/
theorem mem_blk4 (t : Fin cfg0.N) (i : S2x15x1000.Idx) :
    i ∈ ((cfg0.win 4).blk t).view.set ↔ ∀ a : Fin 3, win0_4.index t a * S1x15x1000.size a ≤ (i a).val ∧ (i a).val < win0_4.index t a * S1x15x1000.size a + S1x15x1000.size a := by
  show i ∈ ((View.whole main_v1_2).slice (win0_4.rect t)).set ↔ _
  rw [View.set_slice_whole, Rect.mem_set_unit]
  exact Iff.rfl

/-- Every index of the array lies in the block some half's last point writes back. -/
theorem cover4 (i : S2x15x1000.Idx) :
    ∃ t : Fin cfg0.N, (cfg0.win 4).flush t = true ∧ i ∈ ((cfg0.win 4).blk t).view.set := by
  have hi0 : (i 0).val < 2 := (i 0).isLt
  have hi1 : (i 1).val < 15 := (i 1).isLt
  have hi2 : (i 2).val < 1000 := (i 2).isLt
  have hN : cfg0.N = 50 := N_0
  have hlt : 25 * (i 0).val + 24 < cfg0.N := by rw [hN]; omega
  refine ⟨⟨25 * (i 0).val + 24, hlt⟩, (flush0_4 _).mpr (by show (25 * (i 0).val + 24) % 25 = 24; omega), ?_⟩
  obtain ⟨e0, e1, e2⟩ := out_idx_facts4 ⟨25 * (i 0).val + 24, hlt⟩
  have e0' : win0_4.index ⟨25 * (i 0).val + 24, hlt⟩ (0 : Fin 3) = (i 0).val := by rw [e0]; show (25 * (i 0).val + 24) / 25 = _; omega
  rw [mem_blk4]
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 15 ≤ (i 1).val ∧ (i 1).val < win0_4.index _ (1 : Fin 3) * 15 + 15; omega
  | ⟨2, _⟩ => show win0_4.index _ (2 : Fin 3) * 1000 ≤ (i 2).val ∧ (i 2).val < win0_4.index _ (2 : Fin 3) * 1000 + 1000; omega

/-- So the label-count result array ends holding it. -/
theorem final4 (c : Dev nD) : (dats m 0 c).arrAt 4 cfg0.N = resCorr m c :=
  (dats m 0 c).arrAt_eq_of_cover 4 (resCorr m c) (flushed4_eq m c) cover4

/-! ## The tiles as rows of the arguments -/

/-- Row r of point t's tile is row 1000·t + r of the confidences as the region finds them. -/
theorem tile_apply (c : Dev nD) (t : Fin cfg0.N) (r k : Fin 1000) (hr : 1000 * t.val + r.val < 50000) :
    tile m c t (ix2 r k) = V m c main_arg0 (ix2 ⟨1000 * t.val + r.val, hr⟩ k) := by
  obtain ⟨e0, e1, -, -⟩ := in_idx_facts t
  show V m c main_arg0 (((cfg0.win 0).blk t).view.emb (ix2 r k)) = V m c main_arg0 (ix2 ⟨1000 * t.val + r.val, hr⟩ k)
  refine congrArg (V m c main_arg0) (funext fun a => Fin.ext ?_)
  match a with
  | ⟨0, _⟩ => show win0_0.index t (0 : Fin 2) * 1000 + 1 * r.val = 1000 * t.val + r.val; omega
  | ⟨1, _⟩ => show win0_0.index t (1 : Fin 2) * 1000 + 1 * k.val = k.val; omega

/-- Row r of point t's label column is row 1000·t + r of the label column as the region finds it. -/
theorem lbls_apply (c : Dev nD) (t : Fin cfg0.N) (r : Fin 1000) (u : Fin 1) (hr : 1000 * t.val + r.val < 50000) :
    lbls m c t (ix2 r u) = V m c main_v0 (ix2 ⟨1000 * t.val + r.val, hr⟩ u) := by
  obtain ⟨-, -, e0, e1⟩ := in_idx_facts t
  show V m c main_v0 (((cfg0.win 1).blk t).view.emb (ix2 r u)) = V m c main_v0 (ix2 ⟨1000 * t.val + r.val, hr⟩ u)
  refine congrArg (V m c main_v0) (funext fun a => Fin.ext ?_)
  match a with
  | ⟨0, _⟩ => show win0_1.index t (0 : Fin 2) * 1000 + 1 * r.val = 1000 * t.val + r.val; omega
  | ⟨1, _⟩ => show win0_1.index t (1 : Fin 2) * 1 + 1 * u.val = u.val; omega

/-- The label column the region finds is the host's reshape of the label argument: row n holds label n. -/
theorem label_column (c : Dev nD) (n : Fin 50000) (u : Fin 1) :
    V m c main_v0 (ix2 n u) = m ((c : Thread nD τ).loc main_arg1) (ix1 n) := by
  have e : (V m c main_v0 : S50000x1.Idx → Elt F .i32)
      = shapeCast S50000x1 (m ((c : Thread nD τ).loc main_arg1)) shapeCasts_S50000_S50000x1 := by
    show StableHlo.after hostOps0 (fun b => m (c, b)) (Proc.devRef .tc main_v0) = _
    after_results
    rfl
  rw [e]
  exact Cert.RowOps.column_apply _ _ n u

end Cert.KernelIdeal.Tables

end
-- ==== Proof.LibTiledSum.lean ====
/-
  A sum over `T · n` consecutive indices taken tile by tile.

  In a commutative monoid a sum over `Fin N` with `N = T · n` is the sum over the `T` tiles of the sums over the
  `n` indices of each tile, index `l` of tile `j` being `n · j + l`; and the sum over the tiles is what an
  accumulator started at zero holds after the last tile has been added to it.
-/
import Mathlib.Algebra.BigOperators.Fin
import Mathlib.Algebra.BigOperators.Intervals
import Mathlib.Logic.Equiv.Fin.Basic

open scoped BigOperators

namespace Cert.TiledSum

/-- Index `l` of tile `j`, among `N = T · n` indices. -/
def tile {T n N : Nat} (h : T * n = N) (j : Fin T) (l : Fin n) : Fin N :=
  ⟨n * j.val + l.val, by
    have hj := j.isLt; have hl := l.isLt
    have : n * j.val + n ≤ n * T := by
      have := Nat.mul_le_mul_left n (Nat.succ_le_of_lt hj)
      simpa [Nat.mul_succ] using this
    rw [← h, Nat.mul_comm T n]; omega⟩

@[simp] theorem tile_val {T n N : Nat} (h : T * n = N) (j : Fin T) (l : Fin n) :
    (tile h j l).val = n * j.val + l.val := rfl

/-- A sum over `T · n` indices is the sum over the tiles of the sums within each tile. -/
theorem sum_tiles {M : Type*} [AddCommMonoid M] {T n N : Nat} (h : T * n = N) (F : Fin N → M) :
    ∑ f : Fin N, F f = ∑ j : Fin T, ∑ l : Fin n, F (tile h j l) := by
  subst h
  rw [← Equiv.sum_comp finProdFinEquiv F, Fintype.sum_prod_type]
  refine Finset.sum_congr rfl fun j _ => Finset.sum_congr rfl fun l _ => congrArg F (Fin.ext ?_)
  simp [finProdFinEquiv, tile, Nat.add_comm]

/-- The sum over all `T` tiles is the sum over the first `T` naturals. -/
theorem sum_fin_eq_range {M : Type*} [AddCommMonoid M] (T : Nat) (p : Nat → M) :
    ∑ j : Fin T, p j.val = ∑ j ∈ Finset.range T, p j := (Finset.sum_range p).symm

end Cert.TiledSum
-- ==== Proof.TileSums.lean ====
/-
  The samples, taken half by half and tile by tile.

  The 50000 samples are 50 tiles of 1000 rows, and the two halves of the tiles are 25 tiles each: sample number
  1000·(25·p + k) + r is row r of tile k of half p.  In a commutative monoid a sum over the samples is therefore the sum
  over the halves of the sums over a half's tiles of the sums over a tile's rows: division with remainder, twice.
-/
import proofs.«108759_j47012712022077_2_alg».proof.Proof.LibTiledSum

open scoped BigOperators

namespace Cert.Hist

open Cert.TiledSum

/-- A sum over the 50000 samples, as the sum over the 2 halves, the 25 tiles of a half and the 1000 rows of a tile. -/
theorem sum_halves_tiles {M : Type*} [AddCommMonoid M] (g : ℕ → M) :
    ∑ p : Fin 2, ∑ k ∈ Finset.range 25, ∑ r : Fin 1000, g (1000 * (25 * p.val + k) + r.val)
      = ∑ n : Fin 50000, g n.val := by
  have h1 : (50 : ℕ) * 1000 = 50000 := rfl
  have h2 : (2 : ℕ) * 25 = 50 := rfl
  rw [sum_tiles h1 (fun n => g n.val), sum_tiles h2 (fun j => ∑ l : Fin 1000, g (tile h1 j l).val)]
  refine Finset.sum_congr rfl fun p _ => ?_
  rw [← sum_fin_eq_range 25 (fun k => ∑ r : Fin 1000, g (1000 * (25 * p.val + k) + r.val))]
  rfl

end Cert.Hist
-- ==== Proof.KernelValue.lean ====
/-
  The kernel's result: the calibration error of the specification's three tables.

  After the region the host adds the two halves' blocks of each result, transposes the sum to class-by-bin order
  and runs the common tail.  Entry (k, b) of a table is therefore the sum over the two halves, the 25 points of a half
  and the 1000 rows of a point's tile of one if-then-else per sample — the 50000 samples taken tile by tile —, which is
  the specification's sum over the samples.  Addition of extended reals is commutative and associative and a sample
  outside the bin contributes zero, so nothing here needs the inputs to be finite.
-/
import proofs.«108759_j47012712022077_2_alg».proof.Proof.Results
import proofs.«108759_j47012712022077_2_alg».proof.Proof.HistTail
import proofs.«108759_j47012712022077_2_alg».proof.Proof.TileSums

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Tables

open Cert.KernelIdeal Cert.KernelIdeal.Gen Cert.Hist

/-! ## A table from a result array: the halves added, then transposed -/

theorem lift_half (h : S2x15x1000.Reduces [0] S15x1000) (b : Fin 15) (k : Fin 1000) (p : Fin 2) :
    h.lift (ix2 b k) p = ix3 p b k :=
  funext fun a => Fin.ext (by
    show h.liftVal (ix2 b k) p.val a = (ix3 p b k a).val
    unfold Shape.Reduces.liftVal
    match a with
    | ⟨0, _⟩ => rfl
    | ⟨1, _⟩ => rfl
    | ⟨2, _⟩ => rfl)

/-- Entry (k, b) of the table the host forms from a [2, 15, 1000] result: the two halves' entries (b, k) added. -/
theorem tableOf_apply (R : S2x15x1000.Idx → EReal) (k : Fin 1000) (b : Fin 15) :
    transpose S1000x15 [1, 0]
        (Host.reduceAdd (F := Ideal) (φ := .f32) R (constant (F := Ideal) S_ .f32 0x00000000#32) reducesTo_S2x15x1000_S15x1000_d0 h_S_)
        transposes_S15x1000_S1000x15_1_0 (ix2 k b)
      = ∑ p : Fin 2, R (ix3 p b k) := by
  rw [Cert.RowOps.swap_apply]
  show Ideal.hostReduceAdd reducesTo_S2x15x1000_S15x1000_d0 R (Ideal.ofBits .f32 0x00000000#32) (ix2 b k) = _
  rw [Ideal.hostReduceAdd_single reducesTo_S2x15x1000_S15x1000_d0 (by decide : S2x15x1000.Reduces [0] S15x1000),
    Ideal.ofBits_zero_f32, zero_add]
  exact Finset.sum_congr rfl fun p _ => congrArg R (lift_half _ b k p)

section Value

variable (m : (ℓ : Loc nD τ sig) → Buf (Elt Ideal) ℓ) (ρ : Dev nD → PrngReg)

/-- The confidences and the labels the program was launched with, on core c. -/
abbrev sm (c : Dev nD) : S50000x1000.Idx → EReal := m ((c : Thread nD τ).loc main_arg0)
abbrev lb (c : Dev nD) : S50000.Idx → BitVec 32 := m ((c : Thread nD τ).loc main_arg1)

/-! ## One point's contributions as sums over its rows of the arguments -/

/-- Sample i's term of the counts, of the confidence sums and of the label counts at (class k, bin b); zero past
    the last sample. -/
def cntTerm (c : Dev nD) (k : Fin 1000) (b : Fin 15) (i : ℕ) : EReal :=
  if h : i < 50000 then (if binOf (sm m c (ix2 ⟨i, h⟩ k)) = BitVec.ofNat 32 b.val then fone else 0) else 0
def confTerm (c : Dev nD) (k : Fin 1000) (b : Fin 15) (i : ℕ) : EReal :=
  if h : i < 50000 then (if binOf (sm m c (ix2 ⟨i, h⟩ k)) = BitVec.ofNat 32 b.val then sm m c (ix2 ⟨i, h⟩ k) else 0) else 0
def corrTerm (c : Dev nD) (k : Fin 1000) (b : Fin 15) (i : ℕ) : EReal :=
  if h : i < 50000 then
    (if lb m c (ix1 ⟨i, h⟩) = BitVec.ofNat 32 k.val ∧ binOf (sm m c (ix2 ⟨i, h⟩ k)) = BitVec.ofNat 32 b.val then (1 : EReal) else 0)
  else 0

theorem row_lt {n : ℕ} (hn : n < cfg0.N) (r : Fin 1000) : 1000 * n + r.val < 50000 := by
  have hN : cfg0.N = 50 := N_0
  have := r.isLt
  omega

theorem cntOf_eq (c : Dev nD) (b : Fin 15) (k : Fin 1000) (n : ℕ) (hn : n < cfg0.N) :
    cntOf m c b k n = ∑ r : Fin 1000, cntTerm m c k b (1000 * n + r.val) := by
  unfold cntOf
  rw [dif_pos hn]
  refine Finset.sum_congr rfl fun r _ => ?_
  unfold cntTerm
  rw [dif_pos (row_lt hn r), tile_apply m c ⟨n, hn⟩ r k (row_lt hn r), V_main_arg0]

theorem confOf_eq (c : Dev nD) (b : Fin 15) (k : Fin 1000) (n : ℕ) (hn : n < cfg0.N) :
    confOf m c b k n = ∑ r : Fin 1000, confTerm m c k b (1000 * n + r.val) := by
  unfold confOf
  rw [dif_pos hn]
  refine Finset.sum_congr rfl fun r _ => ?_
  unfold confTerm
  rw [dif_pos (row_lt hn r), tile_apply m c ⟨n, hn⟩ r k (row_lt hn r), V_main_arg0]

theorem corrOf_eq (c : Dev nD) (b : Fin 15) (k : Fin 1000) (n : ℕ) (hn : n < cfg0.N) :
    corrOf m c b k n = ∑ r : Fin 1000, corrTerm m c k b (1000 * n + r.val) := by
  unfold corrOf
  rw [dif_pos hn]
  refine Finset.sum_congr rfl fun r _ => ?_
  unfold corrTerm
  rw [dif_pos (row_lt hn r), tile_apply m c ⟨n, hn⟩ r k (row_lt hn r), V_main_arg0,
    lbls_apply m c ⟨n, hn⟩ r (0 : Fin 1) (row_lt hn r), label_column]

/-! ## The three tables are the specification's -/

theorem point_lt (p : Fin 2) {j : ℕ} (hj : j ∈ Finset.range 25) : 25 * p.val + j < cfg0.N := by
  have hN : cfg0.N = 50 := N_0
  have := p.isLt
  have := Finset.mem_range.mp hj
  omega

theorem cnt_table (c : Dev nD) (k : Fin 1000) (b : Fin 15) :
    ∑ p : Fin 2, resCnt m c (ix3 p b k) = cntG (sm m c) k b := by
  have e : ∀ p : Fin 2, resCnt m c (ix3 p b k) = ∑ j ∈ Finset.range 25, ∑ r : Fin 1000, cntTerm m c k b (1000 * (25 * p.val + j) + r.val) := fun p => by
    show (tbls m c (25 * p.val + 24) (half_lt p)).1 (ix2 b k) = _
    rw [cnt_half m c b k p.val (half_lt p)]
    exact Finset.sum_congr rfl fun j hj => cntOf_eq m c b k _ (point_lt p hj)
  rw [Finset.sum_congr rfl fun p _ => e p, sum_halves_tiles (cntTerm m c k b)]
  unfold cntG cntTerm
  exact Finset.sum_congr rfl fun n _ => by rw [dif_pos n.isLt]

theorem conf_table (c : Dev nD) (k : Fin 1000) (b : Fin 15) :
    ∑ p : Fin 2, resConf m c (ix3 p b k) = confG (sm m c) k b := by
  have e : ∀ p : Fin 2, resConf m c (ix3 p b k) = ∑ j ∈ Finset.range 25, ∑ r : Fin 1000, confTerm m c k b (1000 * (25 * p.val + j) + r.val) := fun p => by
    show (tbls m c (25 * p.val + 24) (half_lt p)).2.1 (ix2 b k) = _
    rw [conf_half m c b k p.val (half_lt p)]
    exact Finset.sum_congr rfl fun j hj => confOf_eq m c b k _ (point_lt p hj)
  rw [Finset.sum_congr rfl fun p _ => e p, sum_halves_tiles (confTerm m c k b)]
  unfold confG confTerm
  exact Finset.sum_congr rfl fun n _ => by rw [dif_pos n.isLt]

theorem corr_table (c : Dev nD) (k : Fin 1000) (b : Fin 15) :
    ∑ p : Fin 2, resCorr m c (ix3 p b k) = corrG (sm m c) (lb m c) k b := by
  have e : ∀ p : Fin 2, resCorr m c (ix3 p b k) = ∑ j ∈ Finset.range 25, ∑ r : Fin 1000, corrTerm m c k b (1000 * (25 * p.val + j) + r.val) := fun p => by
    show (tbls m c (25 * p.val + 24) (half_lt p)).2.2 (ix2 b k) = _
    rw [corr_half m c b k p.val (half_lt p)]
    exact Finset.sum_congr rfl fun j hj => corrOf_eq m c b k _ (point_lt p hj)
  rw [Finset.sum_congr rfl fun p _ => e p, sum_halves_tiles (corrTerm m c k b)]
  unfold corrG corrTerm
  exact Finset.sum_congr rfl fun n _ => by rw [dif_pos n.isLt]

/-! ## The run -/

/-- The value the kernel's program ends with: the calibration error of the specification's tables. -/
def kernelValue (c : Dev nD) : Buf (Elt Ideal) ((c : Thread nD τ).loc main_v22) :=
  histTail (fun i => cntG (sm m c) (i 0) (i 1)) (fun i => confG (sm m c) (i 0) (i 1))
    (fun i => corrG (sm m c) (lb m c) (i 0) (i 1))

/-- The table the host forms from a [2, 15, 1000] result: the halves added, then transposed to class-by-bin. -/
def tableOf (R : S2x15x1000.Idx → EReal) : FVec Ideal S1000x15 .f32 :=
  transpose S1000x15 [1, 0]
    (Host.reduceAdd (F := Ideal) (φ := .f32) R (constant (F := Ideal) S_ .f32 0x00000000#32) reducesTo_S2x15x1000_S15x1000_d0 h_S_)
    transposes_S15x1000_S1000x15_1_0

theorem tableCnt_eq (c : Dev nD) : tableOf (resCnt m c) = fun i => cntG (sm m c) (i 0) (i 1) := funext fun i => by
  obtain ⟨k, b, rfl⟩ : ∃ (k : Fin 1000) (b : Fin 15), i = ix2 k b := ⟨i 0, i 1, eq_ix2 i⟩
  exact (tableOf_apply _ k b).trans (cnt_table m c k b)

theorem tableConf_eq (c : Dev nD) : tableOf (resConf m c) = fun i => confG (sm m c) (i 0) (i 1) := funext fun i => by
  obtain ⟨k, b, rfl⟩ : ∃ (k : Fin 1000) (b : Fin 15), i = ix2 k b := ⟨i 0, i 1, eq_ix2 i⟩
  exact (tableOf_apply _ k b).trans (conf_table m c k b)

theorem tableCorr_eq (c : Dev nD) : tableOf (resCorr m c) = fun i => corrG (sm m c) (lb m c) (i 0) (i 1) := funext fun i => by
  obtain ⟨k, b, rfl⟩ : ∃ (k : Fin 1000) (b : Fin 15), i = ix2 k b := ⟨i 0, i 1, eq_ix2 i⟩
  exact (tableOf_apply _ k b).trans (corr_table m c k b)

set_option maxHeartbeats 4000000 in
/-- The lines after the region run the common tail on the three tables formed from the result arrays. -/
theorem tail_tables (c : Dev nD) :
    Pipeline.afterTail₀ cfgs (dats m) 0 (V0 m) [hostOps1, hostOps1_1, hostOps1_2] c main_v22
      = histTail (tableOf (resCnt m c)) (tableOf (resConf m c)) (tableOf (resCorr m c)) := by
  have hX2 : Pipeline.withArrays (cfgs 0).spec c (V0 m c) (fun w => (dats m 0 c).arrAt w (cfgs 0).N) (Proc.devRef .tc main_v1_0)
      = resCnt m c := (Pipeline.withArrays_arr spec0 launch0.win.arr_inj c _ _ 2).trans (final2 m c)
  have hX3 : Pipeline.withArrays (cfgs 0).spec c (V0 m c) (fun w => (dats m 0 c).arrAt w (cfgs 0).N) (Proc.devRef .tc main_v1_1)
      = resConf m c := (Pipeline.withArrays_arr spec0 launch0.win.arr_inj c _ _ 3).trans (final3 m c)
  have hX4 : Pipeline.withArrays (cfgs 0).spec c (V0 m c) (fun w => (dats m 0 c).arrAt w (cfgs 0).N) (Proc.devRef .tc main_v1_2)
      = resCorr m c := (Pipeline.withArrays_arr spec0 launch0.win.arr_inj c _ _ 4).trans (final4 m c)
  unfold Pipeline.afterTail₀
  simp only [hostOps1, hostOps1_1, hostOps1_2, List.flatten_cons, List.flatten_nil, List.append_nil, List.cons_append,
    List.nil_append]
  after_results_simp
  rw [hX2, hX3, hX4]
  rfl

/-- What the lines after the region compute is the value of the specification's tables. -/
theorem tail_value (c : Dev nD) :
    Pipeline.afterTail₀ cfgs (dats m) 0 (V0 m) [hostOps1, hostOps1_1, hostOps1_2] c main_v22 = kernelValue m c := by
  rw [tail_tables, tableCnt_eq, tableConf_eq, tableCorr_eq]
  rfl

/-- THE KERNEL'S RUN: every weakly fair execution ends with the result at that value and the arguments unchanged. -/
theorem run : θ_run defs (onTc (τ := τ) (main (F := Ideal))) ⟨m, fun _ => 0, ρ⟩ fun r => ∀ c : Dev nD,
      r.2.mem ((c : Thread nD τ).loc main_v22) = kernelValue m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v22 (Pipeline.mem_restRefs_of main_v22 (by decide) (by decide))).trans (tail_value m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Value

end Cert.KernelIdeal.Tables

end
-- ==== Proof.lean ====
/-
  A class-wise calibration histogram: the kernel against its reference, on the extended reals.

  Both programs take 50000 rows of 1000 class confidences and a label per row.  A confidence x falls into the bin
  ⌈15·x⌉ − 1, clamped into [0, 14].  For every class and bin both collect, over the rows whose confidence for the class
  falls into the bin, the number of rows, the sum of those confidences and the number of rows labelled with the class;
  from the three 1000 × 15 tables both compute the same calibration error.

  The reference forms each table with one scatter-add over all 50,000,000 (row, class) pairs into 15000 segments.  The
  kernel walks the rows in 50 tiles of 1000 on a 2 × 25 grid; per tile and bin it sums a masked copy of the tile down
  its columns for the first two tables, and obtains the third as a matrix product of two one-hot arrays (the bin of the
  row's labelled confidence against the row's label); it keeps running tables per half of the rows, copies them out
  after the last tile of a half, and the host adds the two halves.

  On the extended reals the two computations agree entry by entry: a table entry is a sum with one term per row, zero
  for a row outside the bin, and such sums may be taken in any order and grouping; the confidence at the row's label,
  which the kernel obtains by summing a row in which every other entry has been replaced by zero, is that entry
  exactly; and a product of two zero-or-one factors is the indicator of both conditions.  No step needs the inputs to
  be finite.  The bin of a confidence is the same function of it in both programs, so it is never evaluated.

  The frames of the two kernel programs are the generated ones; the reference's frame is its run with the result
  dropped; the ideal pass rewrote nothing.
-/
import proofs.«108759_j47012712022077_2_alg».proof.Defs
import proofs.«108759_j47012712022077_2_alg».proof.Proof.Gen.Kernel
import proofs.«108759_j47012712022077_2_alg».proof.Proof.Gen.Kernel.Skeleton
import proofs.«108759_j47012712022077_2_alg».proof.Proof.Gen.Kernel.Launch
import proofs.«108759_j47012712022077_2_alg».proof.Proof.Gen.Kernel.Points
import proofs.«108759_j47012712022077_2_alg».proof.Proof.Gen.Kernel.Frame
import proofs.«108759_j47012712022077_2_alg».proof.Proof.Gen.KernelIdeal
import proofs.«108759_j47012712022077_2_alg».proof.Proof.Gen.KernelIdeal.Skeleton
import proofs.«108759_j47012712022077_2_alg».proof.Proof.Gen.KernelIdeal.Launch
import proofs.«108759_j47012712022077_2_alg».proof.Proof.Gen.KernelIdeal.Points
import proofs.«108759_j47012712022077_2_alg».proof.Proof.Gen.KernelIdeal.Frame
import proofs.«108759_j47012712022077_2_alg».proof.Proof.Gen.ReferenceIdeal
import proofs.«108759_j47012712022077_2_alg».proof.Proof.Gen.Pre_finite_inputs
import proofs.«108759_j47012712022077_2_alg».proof.Proof.RefRunP
import proofs.«108759_j47012712022077_2_alg».proof.Proof.RefReadP
import proofs.«108759_j47012712022077_2_alg».proof.Proof.RefValue
import proofs.«108759_j47012712022077_2_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the calibration error of the same three tables of arguments that agree. -/
theorem algebraic : Cert.algebraic_KernelIdeal_ReferenceIdeal := by
  intro m ρ m' ρ' _ hagree
  refine ⟨fun c => Cert.KernelIdeal.Tables.kernelValue m c, Cert.KernelIdeal.Tables.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v50_eq, Cert.Hist.Ref.ref_value, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
